-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4000000 : Shape := ⟨2, ![2, 4000000]⟩
abbrev S100000x64 : Shape := ⟨2, ![100000, 64]⟩
abbrev S50000x64 : Shape := ⟨2, ![50000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S2x4000000 32) (main_arg1 : FVec F S100000x64 .f32) (main_arg2 : FVec F S50000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S2x4000000 : Shape := ⟨2, ![2, 4000000]⟩
abbrev S100000x64 : Shape := ⟨2, ![100000, 64]⟩
abbrev S50000x64 : Shape := ⟨2, ![50000, 64]⟩
abbrev S1x4000000 : Shape := ⟨2, ![1, 4000000]⟩
abbrev S4000000 : Shape := ⟨1, ![4000000]⟩
abbrev S150000x64 : Shape := ⟨2, ![150000, 64]⟩
abbrev S_ : Shape := ⟨0, ![]⟩
abbrev S150000 : Shape := ⟨1, ![150000]⟩
abbrev S4000000x1 : Shape := ⟨2, ![4000000, 1]⟩
abbrev S4000000x64 : Shape := ⟨2, ![4000000, 64]⟩
abbrev S5000x64 : Shape := ⟨2, ![5000, 64]⟩
abbrev S5000x1 : Shape := ⟨2, ![5000, 1]⟩
abbrev S6000x64 : Shape := ⟨2, ![6000, 64]⟩

abbrev nBuf : Space → Nat
  | .hbm => 92
  | .vmem => 46
  | .smem => 0
  | _ => 0

abbrev bufTy : (tb : Table) → Fin (tcTables nBuf tb) → BufTy
  | .hbm, ⟨0, _⟩ => ⟨S2x4000000, .i32⟩
  | .hbm, ⟨1, _⟩ => ⟨S100000x64, .f32⟩
  | .hbm, ⟨2, _⟩ => ⟨S50000x64, .f32⟩
  | .hbm, ⟨3, _⟩ => ⟨S1x4000000, .i32⟩
  | .hbm, ⟨4, _⟩ => ⟨S4000000, .i32⟩
  | .hbm, ⟨5, _⟩ => ⟨S1x4000000, .i32⟩
  | .hbm, ⟨6, _⟩ => ⟨S4000000, .i32⟩
  | .hbm, ⟨7, _⟩ => ⟨S150000x64, .f32⟩
  | .hbm, ⟨8, _⟩ => ⟨S_, .f32⟩
  | .hbm, ⟨9, _⟩ => ⟨S4000000, .f32⟩
  | .hbm, ⟨10, _⟩ => ⟨S_, .f32⟩
  | .hbm, ⟨11, _⟩ => ⟨S150000, .f32⟩
  | .hbm, ⟨12, _⟩ => ⟨S4000000x1, .i32⟩
  | .hbm, ⟨13, _⟩ => ⟨S150000, .f32⟩
  | .hbm, ⟨14, _⟩ => ⟨S_, .f32⟩
  | .hbm, ⟨15, _⟩ => ⟨S150000, .f32⟩
  | .hbm, ⟨16, _⟩ => ⟨S150000, .i1⟩
  | .hbm, ⟨17, _⟩ => ⟨S_, .f32⟩
  | .hbm, ⟨18, _⟩ => ⟨S150000, .f32⟩
  | .hbm, ⟨19, _⟩ => ⟨S150000, .f32⟩
  | .hbm, ⟨20, _⟩ => ⟨S_, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S4000000x1, .f32⟩
  | .hbm, ⟨34, _⟩ => ⟨S_, .i32⟩
  | .hbm, ⟨35, _⟩ => ⟨S4000000, .i32⟩
  | .hbm, ⟨36, _⟩ => ⟨S4000000, .i1⟩
  | .hbm, ⟨37, _⟩ => ⟨S_, .i32⟩
  | .hbm, ⟨38, _⟩ => ⟨S4000000, .i32⟩
  | .hbm, ⟨39, _⟩ => ⟨S4000000, .i32⟩
  | .hbm, ⟨40, _⟩ => ⟨S4000000, .i32⟩
  | .hbm, ⟨41, _⟩ => ⟨S4000000x1, .i32⟩
  | .hbm, ⟨42, _⟩ => ⟨S4000000, .f32⟩
  | .hbm, ⟨43, _⟩ => ⟨S4000000x1, .f32⟩
  | .hbm, ⟨44, _⟩ => ⟨S_, .i32⟩
  | .hbm, ⟨45, _⟩ => ⟨S4000000, .i32⟩
  | .hbm, ⟨46, _⟩ => ⟨S4000000, .i1⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S4000000x1, .i32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S150000x64, .f32⟩
  | .hbm, ⟨56, _⟩ => ⟨S4000000x1, .i32⟩
  | .hbm, ⟨57, _⟩ => ⟨S150000x64, .f32⟩
  | .hbm, ⟨58, _⟩ => ⟨S150000x64, .f32⟩
  | .hbm, ⟨59, _⟩ => ⟨S_, .i32⟩
  | .hbm, ⟨60, _⟩ => ⟨S4000000, .i32⟩
  | .hbm, ⟨61, _⟩ => ⟨S4000000, .i1⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000x1, .i32⟩
  | .hbm, ⟨67, _⟩ => ⟨S4000000x64, .f32⟩
  | .hbm, ⟨68, _⟩ => ⟨S4000000x64, .f32⟩
  | .hbm, ⟨69, _⟩ => ⟨S_, .f32⟩
  | .hbm, ⟨70, _⟩ => ⟨S150000x64, .f32⟩
  | .hbm, ⟨71, _⟩ => ⟨S4000000x1, .i32⟩
  | .hbm, ⟨72, _⟩ => ⟨S150000x64, .f32⟩
  | .hbm, ⟨73, _⟩ => ⟨S150000x64, .f32⟩
  | .hbm, ⟨74, _⟩ => ⟨S_, .i32⟩
  | .hbm, ⟨75, _⟩ => ⟨S4000000, .i32⟩
  | .hbm, ⟨76, _⟩ => ⟨S4000000, .i1⟩
  | .hbm, ⟨77, _⟩ => ⟨S_, .i32⟩
  | .hbm, ⟨78, _⟩ => ⟨S4000000, .i32⟩
  | .hbm, ⟨79, _⟩ => ⟨S4000000, .i32⟩
  | .hbm, ⟨80, _⟩ => ⟨S4000000, .i32⟩
  | .hbm, ⟨81, _⟩ => ⟨S4000000x1, .i32⟩
  | .hbm, ⟨82, _⟩ => ⟨S4000000x64, .f32⟩
  | .hbm, ⟨83, _⟩ => ⟨S4000000x64, .f32⟩
  | .hbm, ⟨84, _⟩ => ⟨S_, .f32⟩
  | .hbm, ⟨85, _⟩ => ⟨S150000x64, .f32⟩
  | .hbm, ⟨86, _⟩ => ⟨S4000000x1, .i32⟩
  | .hbm, ⟨87, _⟩ => ⟨S150000x64, .f32⟩
  | .hbm, ⟨88, _⟩ => ⟨S150000x64, .f32⟩
  | .hbm, ⟨89, _⟩ => ⟨S150000x64, .f32⟩
  | .hbm, ⟨90, _⟩ => ⟨S100000x64, .f32⟩
  | .hbm, ⟨91, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S6000x64, .f32⟩
  | .local _ .vmem, ⟨13, _⟩ => ⟨S6000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x64, .f32⟩
  | .local _ .vmem, ⟨21, _⟩ => ⟨S5000x64, .f32⟩
  | .local _ .vmem, ⟨22, _⟩ => ⟨S6000x64, .f32⟩
  | .local _ .vmem, ⟨23, _⟩ => ⟨S6000x64, .f32⟩
  | .local _ .vmem, ⟨24, _⟩ => ⟨S6000x64, .f32⟩
  | .local _ .vmem, ⟨25, _⟩ => ⟨S6000x64, .f32⟩
  | .local _ .vmem, ⟨26, _⟩ => ⟨S6000x64, .f32⟩
  | .local _ .vmem, ⟨27, _⟩ => ⟨S6000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x64, .f32⟩
  | .local _ .vmem, ⟨35, _⟩ => ⟨S5000x64, .f32⟩
  | .local _ .vmem, ⟨36, _⟩ => ⟨S6000x64, .f32⟩
  | .local _ .vmem, ⟨37, _⟩ => ⟨S6000x64, .f32⟩
  | .local _ .vmem, ⟨38, _⟩ => ⟨S6000x64, .f32⟩
  | .local _ .vmem, ⟨39, _⟩ => ⟨S6000x64, .f32⟩
  | .local _ .vmem, ⟨40, _⟩ => ⟨S6000x64, .f32⟩
  | .local _ .vmem, ⟨41, _⟩ => ⟨S6000x64, .f32⟩
  | .local _ .vmem, ⟨42, _⟩ => ⟨S6000x64, .f32⟩
  | .local _ .vmem, ⟨43, _⟩ => ⟨S6000x64, .f32⟩
  | .local _ .vmem, ⟨44, _⟩ => ⟨S6000x64, .f32⟩
  | .local _ .vmem, ⟨45, _⟩ => ⟨S6000x64, .f32⟩
  | _, _ => ⟨S2x4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_13 : Ref sig .tc := ⟨.hbm, 74, rfl⟩
abbrev main_v54 : Ref sig .tc := ⟨.hbm, 75, rfl⟩
abbrev main_v55 : Ref sig .tc := ⟨.hbm, 76, rfl⟩
abbrev main_c_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![800], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![800], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S100000x64_S50000x64_S150000x64_d0 : Shape.Concatenates [S100000x64, S50000x64] S150000x64 0
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  slices_S150000x64_S100000x64_0_0 : S150000x64.Slices ![0, 0] S100000x64
  slices_S150000x64_S50000x64_100000_0 : S150000x64.Slices ![100000, 0] S50000x64
  scatter_S150000_S4000000x1_S4000000_n_0_0_1_wf : ScatterDims.WF S150000 S4000000x1 S4000000 [] [0] [0] 1
  gather_S150000_S4000000x1_S4000000_n_0_n_n_0_1_1_wf : GatherDims.WF S150000 S4000000x1 S4000000 [] [0] [] [0] [] 1 ![1]
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S4000000x64.size a
  hwx0_0 : ∀ i : grid0.Coords, EltTy.bits .f32 = 32 ∨ (Rect.block (s := S4000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S4000000x1.size a
  hwx0_1 : ∀ i : grid0.Coords, EltTy.bits .f32 = 32 ∨ (Rect.block (s := S4000000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S4000000x1.size a
  hwx0_2 : ∀ i : grid0.Coords, EltTy.bits .f32 = 32 ∨ (Rect.block (s := S4000000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S4000000x64.size a
  hwx0_3 : ∀ i : grid0.Coords, EltTy.bits .f32 = 32 ∨ (Rect.block (s := S4000000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S150000x64.size a
  hwx1_2 : ∀ i : grid1.Coords, EltTy.bits .f32 = 32 ∨ (Rect.block (s := S150000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S4000000x64.size a
  hwx2_0 : ∀ i : grid2.Coords, EltTy.bits .f32 = 32 ∨ (Rect.block (s := S4000000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S4000000x1.size a
  hwx2_1 : ∀ i : grid2.Coords, EltTy.bits .f32 = 32 ∨ (Rect.block (s := S4000000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S4000000x1.size a
  hwx2_2 : ∀ i : grid2.Coords, EltTy.bits .f32 = 32 ∨ (Rect.block (s := S4000000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S4000000x64.size a
  hwx2_3 : ∀ i : grid2.Coords, EltTy.bits .f32 = 32 ∨ (Rect.block (s := S4000000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S150000x64.size a
  hwx3_0 : ∀ i : grid3.Coords, EltTy.bits .f32 = 32 ∨ (Rect.block (s := S150000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S150000x64.size a
  hwx3_1 : ∀ i : grid3.Coords, EltTy.bits .f32 = 32 ∨ (Rect.block (s := S150000x64) S6000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S150000x64.size a
  hwx3_2 : ∀ i : grid3.Coords, EltTy.bits .f32 = 32 ∨ (Rect.block (s := S150000x64) S6000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S4000000x64.size a
  hwx4_0 : ∀ i : grid4.Coords, EltTy.bits .f32 = 32 ∨ (Rect.block (s := S4000000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S4000000x1.size a
  hwx4_1 : ∀ i : grid4.Coords, EltTy.bits .f32 = 32 ∨ (Rect.block (s := S4000000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S4000000x1.size a
  hwx4_2 : ∀ i : grid4.Coords, EltTy.bits .f32 = 32 ∨ (Rect.block (s := S4000000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S4000000x64.size a
  hwx4_3 : ∀ i : grid4.Coords, EltTy.bits .f32 = 32 ∨ (Rect.block (s := S4000000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S150000x64.size a
  hwx5_0 : ∀ i : grid5.Coords, EltTy.bits .f32 = 32 ∨ (Rect.block (s := S150000x64) S6000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S150000x64.size a
  hwx5_1 : ∀ i : grid5.Coords, EltTy.bits .f32 = 32 ∨ (Rect.block (s := S150000x64) S6000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x64.size a ≤ S150000x64.size a
  hwx5_2 : ∀ i : grid5.Coords, EltTy.bits .f32 = 32 ∨ (Rect.block (s := S150000x64) S6000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x64.size a ≤ S150000x64.size a
  hwx6_0 : ∀ i : grid6.Coords, EltTy.bits .f32 = 32 ∨ (Rect.block (s := S150000x64) S6000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S150000x64.size a
  hwx6_1 : ∀ i : grid6.Coords, EltTy.bits .f32 = 32 ∨ (Rect.block (s := S150000x64) S6000x64.size (cc6_transform_1 i) (hinb6_1 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v36) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S6000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v53) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S6000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S6000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v65) S6000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S6000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S2x4000000 : Shape := ⟨2, ![2, 4000000]⟩
abbrev S100000x64 : Shape := ⟨2, ![100000, 64]⟩
abbrev S50000x64 : Shape := ⟨2, ![50000, 64]⟩
abbrev S150000x64 : Shape := ⟨2, ![150000, 64]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S4000000x64 : Shape := ⟨2, ![4000000, 64]⟩

abbrev nBuf : Space → Nat
  | .hbm => 177
  | .vmem => 0
  | .smem => 0
  | _ => 0

abbrev hbmTy0_0 (i : Nat) : BufTy := match i % 128 with
  | 0 => ⟨S2x4000000, .i32⟩
  | 1 => ⟨S100000x64, .f32⟩
  | 2 => ⟨S50000x64, .f32⟩
  | 3 => ⟨S150000x64, .f32⟩
  | 4 => ⟨S1x4000000, .i32⟩
  | 5 => ⟨S4000000, .i32⟩
  | 6 => ⟨S1x4000000, .i32⟩
  | 7 => ⟨S4000000, .i32⟩
  | 8 => ⟨S_, .f32⟩
  | 9 => ⟨S4000000, .f32⟩
  | 10 => ⟨S_, .f32⟩
  | 11 => ⟨S150000, .f32⟩
  | 12 => ⟨S4000000x1, .i32⟩
  | 13 => ⟨S150000, .f32⟩
  | 14 => ⟨S_, .f32⟩
  | 15 => ⟨S150000, .f32⟩
  | 16 => ⟨S150000, .i1⟩
  | 17 => ⟨S_, .f32⟩
  | 18 => ⟨S150000, .f32⟩
  | 19 => ⟨S150000, .f32⟩
  | 20 => ⟨S_, .f32⟩
  | 21 => ⟨S_, .f32⟩
  | 22 => ⟨S150000, .f32⟩
  | 23 => ⟨S150000, .f32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S4000000x1, .i32⟩
  | 32 => ⟨S4000000, .f32⟩
  | 33 => ⟨S_, .i32⟩
  | 34 => ⟨S4000000, .i32⟩
  | 35 => ⟨S4000000, .i1⟩
  | 36 => ⟨S_, .i32⟩
  | 37 => ⟨S4000000, .i32⟩
  | 38 => ⟨S4000000, .i32⟩
  | 39 => ⟨S4000000, .i32⟩
  | 40 => ⟨S4000000x1, .i32⟩
  | 41 => ⟨S4000000, .f32⟩
  | 42 => ⟨S4000000, .f32⟩
  | 43 => ⟨S_, .i32⟩
  | 44 => ⟨S4000000, .i32⟩
  | 45 => ⟨S4000000, .i1⟩
  | 46 => ⟨S_, .i32⟩
  | 47 => ⟨S4000000, .i32⟩
  | 48 => ⟨S4000000, .i32⟩
  | 49 => ⟨S4000000, .i32⟩
  | 50 => ⟨S4000000x1, .i32⟩
  | 51 => ⟨S4000000x64, .f32⟩
  | 52 => ⟨S4000000x1, .f32⟩
  | 53 => ⟨S4000000x64, .f32⟩
  | 54 => ⟨S4000000x64, .f32⟩
  | 55 => ⟨S_, .f32⟩
  | 56 => ⟨S150000x64, .f32⟩
  | 57 => ⟨S4000000x1, .i32⟩
  | 58 => ⟨S150000x64, .f32⟩
  | 59 => ⟨S150000x64, .f32⟩
  | 60 => ⟨S1x4000000, .i32⟩
  | 61 => ⟨S4000000, .i32⟩
  | 62 => ⟨S1x4000000, .i32⟩
  | 63 => ⟨S4000000, .i32⟩
  | 64 => ⟨S_, .f32⟩
  | 65 => ⟨S4000000, .f32⟩
  | 66 => ⟨S_, .f32⟩
  | 67 => ⟨S150000, .f32⟩
  | 68 => ⟨S4000000x1, .i32⟩
  | 69 => ⟨S150000, .f32⟩
  | 70 => ⟨S_, .f32⟩
  | 71 => ⟨S150000, .f32⟩
  | 72 => ⟨S150000, .i1⟩
  | 73 => ⟨S_, .f32⟩
  | 74 => ⟨S150000, .f32⟩
  | 75 => ⟨S150000, .f32⟩
  | 76 => ⟨S_, .f32⟩
  | 77 => ⟨S_, .f32⟩
  | 78 => ⟨S150000, .f32⟩
  | 79 => ⟨S150000, .f32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S4000000x1, .i32⟩
  | 88 => ⟨S4000000, .f32⟩
  | 89 => ⟨S_, .i32⟩
  | 90 => ⟨S4000000, .i32⟩
  | 91 => ⟨S4000000, .i1⟩
  | 92 => ⟨S_, .i32⟩
  | 93 => ⟨S4000000, .i32⟩
  | 94 => ⟨S4000000, .i32⟩
  | 95 => ⟨S4000000, .i32⟩
  | 96 => ⟨S4000000x1, .i32⟩
  | 97 => ⟨S4000000, .f32⟩
  | 98 => ⟨S4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S4000000x1, .i32⟩
  | 107 => ⟨S4000000x64, .f32⟩
  | 108 => ⟨S4000000x1, .f32⟩
  | 109 => ⟨S4000000x64, .f32⟩
  | 110 => ⟨S4000000x64, .f32⟩
  | 111 => ⟨S_, .f32⟩
  | 112 => ⟨S150000x64, .f32⟩
  | 113 => ⟨S4000000x1, .i32⟩
  | 114 => ⟨S150000x64, .f32⟩
  | 115 => ⟨S150000x64, .f32⟩
  | 116 => ⟨S1x4000000, .i32⟩
  | 117 => ⟨S4000000, .i32⟩
  | 118 => ⟨S1x4000000, .i32⟩
  | 119 => ⟨S4000000, .i32⟩
  | 120 => ⟨S_, .f32⟩
  | 121 => ⟨S4000000, .f32⟩
  | 122 => ⟨S_, .f32⟩
  | 123 => ⟨S150000, .f32⟩
  | 124 => ⟨S4000000x1, .i32⟩
  | 125 => ⟨S150000, .f32⟩
  | 126 => ⟨S_, .f32⟩
  | 127 => ⟨S150000, .f32⟩
  | _ => ⟨S2x4000000, .i32⟩

abbrev hbmTy0_1 (i : Nat) : BufTy := match i % 128 with
  | 0 => ⟨S150000, .i1⟩
  | 1 => ⟨S_, .f32⟩
  | 2 => ⟨S150000, .f32⟩
  | 3 => ⟨S150000, .f32⟩
  | 4 => ⟨S_, .f32⟩
  | 5 => ⟨S_, .f32⟩
  | 6 => ⟨S150000, .f32⟩
  | 7 => ⟨S150000, .f32⟩
  | 8 => ⟨S_, .i32⟩
  | 9 => ⟨S4000000, .i32⟩
  | 10 => ⟨S4000000, .i1⟩
  | 11 => ⟨S_, .i32⟩
  | 12 => ⟨S4000000, .i32⟩
  | 13 => ⟨S4000000, .i32⟩
  | 14 => ⟨S4000000, .i32⟩
  | 15 => ⟨S4000000x1, .i32⟩
  | 16 => ⟨S4000000, .f32⟩
  | 17 => ⟨S_, .i32⟩
  | 18 => ⟨S4000000, .i32⟩
  | 19 => ⟨S4000000, .i1⟩
  | 20 => ⟨S_, .i32⟩
  | 21 => ⟨S4000000, .i32⟩
  | 22 => ⟨S4000000, .i32⟩
  | 23 => ⟨S4000000, .i32⟩
  | 24 => ⟨S4000000x1, .i32⟩
  | 25 => ⟨S4000000, .f32⟩
  | 26 => ⟨S4000000, .f32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S4000000x1, .i32⟩
  | 35 => ⟨S4000000x64, .f32⟩
  | 36 => ⟨S4000000x1, .f32⟩
  | 37 => ⟨S4000000x64, .f32⟩
  | 38 => ⟨S4000000x64, .f32⟩
  | 39 => ⟨S_, .f32⟩
  | 40 => ⟨S150000x64, .f32⟩
  | 41 => ⟨S4000000x1, .i32⟩
  | 42 => ⟨S150000x64, .f32⟩
  | 43 => ⟨S150000x64, .f32⟩
  | 44 => ⟨S_, .f32⟩
  | 45 => ⟨S150000x64, .f32⟩
  | 46 => ⟨S150000x64, .f32⟩
  | 47 => ⟨S100000x64, .f32⟩
  | 48 => ⟨S50000x64, .f32⟩
  | _ => ⟨S2x4000000, .i32⟩

abbrev hbmTy (i : Nat) : BufTy := match i / 128 with
  | 0 => hbmTy0_0 i
  | 1 => hbmTy0_1 i
  | _ => ⟨S2x4000000, .i32⟩

abbrev bufTy : (tb : Table) → Fin (tcTables nBuf tb) → BufTy
  | .hbm, ⟨i, _⟩ => hbmTy i
  | _, _ => ⟨S2x4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_c_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_19 : Ref sig .tc := ⟨.hbm, 99, rfl⟩
abbrev main_v71 : Ref sig .tc := ⟨.hbm, 100, rfl⟩
abbrev main_v72 : Ref sig .tc := ⟨.hbm, 101, rfl⟩
abbrev main_c_20 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_22 : Ref sig .tc := ⟨.hbm, 120, rfl⟩
abbrev main_v89 : Ref sig .tc := ⟨.hbm, 121, rfl⟩
abbrev main_cst_23 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_24 : Ref sig .tc := ⟨.hbm, 126, rfl⟩
abbrev main_v93 : Ref sig .tc := ⟨.hbm, 127, rfl⟩
abbrev main_v94 : Ref sig .tc := ⟨.hbm, 128, rfl⟩
abbrev main_cst_25 : Ref sig .tc := ⟨.hbm, 129, rfl⟩
abbrev main_v95 : Ref sig .tc := ⟨.hbm, 130, rfl⟩
abbrev main_v96 : Ref sig .tc := ⟨.hbm, 131, rfl⟩
abbrev main_cst_26 : Ref sig .tc := ⟨.hbm, 132, rfl⟩
abbrev main_call2_v0 : Ref sig .tc := ⟨.hbm, 133, rfl⟩
abbrev main_call2_v1 : Ref sig .tc := ⟨.hbm, 134, rfl⟩
abbrev main_v97 : Ref sig .tc := ⟨.hbm, 135, rfl⟩
abbrev main_c_27 : Ref sig .tc := ⟨.hbm, 136, rfl⟩
abbrev main_v98 : Ref sig .tc := ⟨.hbm, 137, rfl⟩
abbrev main_v99 : Ref sig .tc := ⟨.hbm, 138, rfl⟩
abbrev main_c_28 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_c_29 : Ref sig .tc := ⟨.hbm, 145, rfl⟩
abbrev main_v105 : Ref sig .tc := ⟨.hbm, 146, rfl⟩
abbrev main_v106 : Ref sig .tc := ⟨.hbm, 147, rfl⟩
abbrev main_c_30 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_31 : Ref sig .tc := ⟨.hbm, 155, rfl⟩
abbrev main_v113 : Ref sig .tc := ⟨.hbm, 156, rfl⟩
abbrev main_v114 : Ref sig .tc := ⟨.hbm, 157, rfl⟩
abbrev main_c_32 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_33 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_34 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  scatter_S150000_S4000000x1_S4000000_n_0_0_1_wf : ScatterDims.WF S150000 S4000000x1 S4000000 [] [0] [0] 1
  gather_S150000_S4000000x1_S4000000_n_0_n_n_0_1_1_wf : GatherDims.WF S150000 S4000000x1 S4000000 [] [0] [] [0] [] 1 ![1]
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.KernelRun.lean ====
/-
  The idealized kernel's run with its two result arrays NAMED.

  @main is sixteen segments: host stretches and the seven grid regions. The generated frame folds the buffer
  contents through them (`Gen.W0` … `Gen.W16`: a host stretch applies its operations, a region replaces its
  arrays by what its write-backs leave) and reads the last contents `Gen.W16` against the final memory, but states
  only that the three arguments end unchanged. Read at the two result buffers as well, the same run says: every
  weakly fair execution terminates, faultless, with the results at `Gen.W16` of their buffers.
-/
import proofs.«163690_j34187939676701_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the three arguments as launched. -/
theorem run_named : θ_run defs (onTc (τ := τ) (main (F := F))) ⟨m, fun _ => 0, ρ⟩ (fun r => ∀ c : Dev nD,
      r.2.mem ((c.tc : Thread nD τ).loc main_v67) = W16 m ρ c (Proc.devRef .tc main_v67)
      ∧ r.2.mem ((c.tc : Thread nD τ).loc main_v68) = W16 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v67 (by decide)),
       h c _ (mem_uc main_v68 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c)⟩)

end Cert.KernelIdeal.Run

end
-- ==== Proof.Spec.lean ====
/-
  The three whole-array functions the kernel's seven grid regions compute, over the extended reals, index by index:
  a row-scaled edge array, the sum of two node arrays, and a node array times one quarter.
-/
import Idealize.ShloMosaic.PureOps.Ideal
import Idealize.ShloMosaic.Lib.ValueIdx

noncomputable section

namespace Cert.Spec

open Idealize.ShloMosaic Idealize.ShloMosaic.ValueIdx

/-- Edge rows by feature columns. -/
abbrev EdgeFeat : Shape := ⟨2, ![4000000, 64]⟩
/-- Edge rows, one column. -/
abbrev EdgeCol : Shape := ⟨2, ![4000000, 1]⟩
/-- Node rows by feature columns. -/
abbrev NodeFeat : Shape := ⟨2, ![150000, 64]⟩

/-- The entry of the one-column array in the same edge row as `i`. -/
abbrev rowOf (i : EdgeFeat.Idx) : EdgeCol.Idx := ix2 (n0 := 4000000) (n1 := 1) (i 0) 0

theorem rowOf_ix2 (e : Fin 4000000) (q : Fin 64) : rowOf (ix2 e q) = ix2 e (0 : Fin 1) := rfl

/-- Every row `e` of `x` multiplied first by `a[e]`, then by `b[e]`. -/
def scaleRows (x : EdgeFeat.Idx → EReal) (a b : EdgeCol.Idx → EReal) : EdgeFeat.Idx → EReal :=
  fun i => x i * a (rowOf i) * b (rowOf i)

/-- The entrywise sum of two node arrays. -/
def addArrays (p q : NodeFeat.Idx → EReal) : NodeFeat.Idx → EReal := fun i => p i + q i

/-- A node array with every entry multiplied by the float 0.25 (the word 0x3E800000). -/
def quarter (p : NodeFeat.Idx → EReal) : NodeFeat.Idx → EReal := fun i => p i * Ideal.ofBits .f32 0x3E800000#32

end Cert.Spec

end
-- ==== Proof.RegionScale4.lean ====
/-
  Grid region 4 (the per-edge scaling): the array it leaves is the row-scaled array of the three arrays it reads.

  The region walks the 4,000,000 edge rows in 800 blocks of 5,000 rows. At block t the body loads rows
  5000·t … 5000·t+4999 of the edge-by-feature array x and of the two one-column arrays a and b, and stores
  (x · a) · b, each column array spread over the 64 features of its row. Entry (e, q) of the result therefore
  depends only on x[e, q], a[e] and b[e]; every edge row lies in exactly the block e / 5000, so the blocks'
  write-backs together are the one whole-array function `Spec.scaleRows`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at entry (r, q) of a block: the loaded entry times the two factors of its row, in that order. -/
theorem payload_apply (x : Vec Ideal S5000x64 .f32) (a b : Vec Ideal S5000x1 .f32) (r : Fin 5000) (q : Fin 64) :
    k4_pay1 x a b (ix2 r q) = x (ix2 r q) * a (ix2 r (0 : Fin 1)) * b (ix2 r (0 : Fin 1)) := by
  unfold k4_pay1
  simp only [shapeCast_self]
  rw [mulf_apply, mulf_apply,
    broadcastTo_apply a broadcasts_S5000x1_S5000x64 (ix2 r q) (ix2 r (0 : Fin 1)) (fun d => match d with | ⟨0, _⟩ => rfl | ⟨1, _⟩ => rfl),
    broadcastTo_apply b broadcasts_S5000x1_S5000x64 (ix2 r q) (ix2 r (0 : Fin 1)) (fun d => match d with | ⟨0, _⟩ => rfl | ⟨1, _⟩ => rfl)]

/-- The printed index maps over the 800 grid points: every window's block index is (t, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the row-scaled array of the three arrays as the region finds them. -/
theorem flushed_eq (c : Dev nD) (t : Fin cfg4.N) :
    (dat4 V c).flushed 3 t
      = ((cfg4.win 3).blk t).view.read (Elt Ideal) (Spec.scaleRows (V c main_v60) (V c main_v21) (V c main_v29)) := by
  show (cfg4.win 3).cut (grid4.coords t) ((dat4 V c).after 3 t) = _
  rw [after4_3]
  unfold out4_3
  rw [View.canon_unit_zero origin]
  simp only [View.ld_unit_zero (S := S5000x64) origin, View.ld_unit_zero (S := S5000x1) origin]
  obtain ⟨e0, e1, e2, e3, e4, e5, e6, e7⟩ := idx_facts t
  funext j
  obtain ⟨r, q, rfl⟩ : ∃ (r : Fin 5000) (q : Fin 64), j = ix2 r q := ⟨j 0, j 1, eq_ix2 j⟩
  show k4_pay1 (iblk4 V c 0 t) (iblk4 V c 1 t) (iblk4 V c 2 t) (ix2 r q)
      = Spec.scaleRows (V c main_v60) (V c main_v21) (V c main_v29) (((cfg4.win 3).blk t).view.emb (ix2 r q))
  refine (payload_apply (iblk4 V c 0 t) (iblk4 V c 1 t) (iblk4 V c 2 t) r q).trans ?_
  have hr : r.val < 5000 := r.isLt
  have hq : q.val < 64 := q.isLt
  have h0 : ((cfg4.win 0).blk t).view.emb (ix2 r q) = ((cfg4.win 3).blk t).view.emb (ix2 r q) := by
    funext d; apply Fin.ext
    match d with
    | ⟨0, _⟩ => show win4_0.index t (0 : Fin 2) * 5000 + 1 * r.val = win4_3.index t (0 : Fin 2) * 5000 + 1 * r.val; omega
    | ⟨1, _⟩ => show win4_0.index t (1 : Fin 2) * 64 + 1 * q.val = win4_3.index t (1 : Fin 2) * 64 + 1 * q.val; omega
  have h1 : ((cfg4.win 1).blk t).view.emb (ix2 r (0 : Fin 1)) = Spec.rowOf (((cfg4.win 3).blk t).view.emb (ix2 r q)) := by
    funext d; apply Fin.ext
    match d with
    | ⟨0, _⟩ => show win4_1.index t (0 : Fin 2) * 5000 + 1 * r.val = win4_3.index t (0 : Fin 2) * 5000 + 1 * r.val; omega
    | ⟨1, _⟩ => show win4_1.index t (1 : Fin 2) * 1 + 1 * 0 = 0; omega
  have h2 : ((cfg4.win 2).blk t).view.emb (ix2 r (0 : Fin 1)) = Spec.rowOf (((cfg4.win 3).blk t).view.emb (ix2 r q)) := by
    funext d; apply Fin.ext
    match d with
    | ⟨0, _⟩ => show win4_2.index t (0 : Fin 2) * 5000 + 1 * r.val = win4_3.index t (0 : Fin 2) * 5000 + 1 * r.val; omega
    | ⟨1, _⟩ => show win4_2.index t (1 : Fin 2) * 1 + 1 * 0 = 0; omega
  have key : ∀ (X : S4000000x64.Idx → EReal) (A B : S4000000x1.Idx → EReal),
      X (((cfg4.win 0).blk t).view.emb (ix2 r q)) * A (((cfg4.win 1).blk t).view.emb (ix2 r (0 : Fin 1)))
          * B (((cfg4.win 2).blk t).view.emb (ix2 r (0 : Fin 1)))
        = Spec.scaleRows X A B (((cfg4.win 3).blk t).view.emb (ix2 r q)) := by
    intro X A B
    rw [h0, h1, h2]
    rfl
  exact key (V c main_v60) (V c main_v21) (V c main_v29)

/-- An index of the result array is in point `t`'s block iff each coordinate is in the block's range on its axis. -/
theorem mem_blk (t : Fin cfg4.N) (i : S4000000x64.Idx) :
    i ∈ ((cfg4.win 3).blk t).view.set ↔ ∀ d : Fin 2, win4_3.index t d * S5000x64.size d ≤ (i d).val
      ∧ (i d).val < win4_3.index t d * S5000x64.size d + S5000x64.size d := by
  show i ∈ ((View.whole main_v61).slice (win4_3.rect t)).set ↔ _
  rw [View.set_slice_whole, Rect.mem_set_unit]
  exact Iff.rfl

/-- Edge row e lies in the block of point e / 5000: the 800 blocks cover the array. -/
theorem cover (i : S4000000x64.Idx) :
    ∃ t : Fin cfg4.N, (cfg4.win 3).flush t = true ∧ i ∈ ((cfg4.win 3).blk t).view.set := by
  have hi0 : (i 0).val < 4000000 := (i 0).isLt
  have hi1 : (i 1).val < 64 := (i 1).isLt
  have hlt : (i 0).val / 5000 < grid4.N := by rw [N_4]; omega
  obtain ⟨-, -, -, -, -, -, e6, e7⟩ := idx_facts ⟨(i 0).val / 5000, hlt⟩
  have e6' : win4_3.index ⟨(i 0).val / 5000, hlt⟩ (0 : Fin 2) = (i 0).val / 5000 := e6
  refine ⟨⟨(i 0).val / 5000, hlt⟩, flush4_3 _, ?_⟩
  rw [mem_blk]
  intro d
  match d with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    omega
  | ⟨1, _⟩ =>
    show win4_3.index ⟨(i 0).val / 5000, hlt⟩ (1 : Fin 2) * 64 ≤ (i 1).val
      ∧ (i 1).val < win4_3.index ⟨(i 0).val / 5000, hlt⟩ (1 : Fin 2) * 64 + 64
    omega

/-- THE ARRAY the region leaves: the row-scaled array of the three arrays it was entered with. -/
theorem array_eq (c : Dev nD) :
    (dat4 V c).arrAt 3 cfg4.N = Spec.scaleRows (V c main_v60) (V c main_v21) (V c main_v29) :=
  (dat4 V c).arrAt_eq_of_cover 3 _ (fun t _ => flushed_eq V c t) cover

end Cert.KernelIdeal.Scale4

end
-- ==== Proof.RegionAdd5.lean ====
/-
  Grid region 5 (the per-node accumulation): the array it leaves is the entrywise sum of the two arrays it reads.

  The region walks the 150,000 node rows in 25 blocks of 6,000 rows; at block t the body loads rows
  6000·t … 6000·t+5999 of both node-by-feature arrays and stores their sum. Every node row lies in exactly
  the block n / 6000, so the write-backs together are the one whole-array function `Spec.addArrays`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Add5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an entry of a block: the sum of the two loaded entries. -/
theorem payload_apply (x y : Vec Ideal S6000x64 .f32) (j : S6000x64.Idx) : k5_pay1 x y j = x j + y j := by
  unfold k5_pay1
  simp only [shapeCast_self]
  rfl

/-- The printed index maps over the 25 grid points: every window's block index is (t, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the sum of the two arrays as the region finds them. -/
theorem flushed_eq (c : Dev nD) (t : Fin cfg5.N) :
    (dat5 V c).flushed 2 t
      = ((cfg5.win 2).blk t).view.read (Elt Ideal) (Spec.addArrays (V c main_v53) (V c main_v64)) := by
  show (cfg5.win 2).cut (grid5.coords t) ((dat5 V c).after 2 t) = _
  rw [after5_2]
  unfold out5_2
  rw [View.canon_unit_zero origin]
  simp only [View.ld_unit_zero (S := S6000x64) origin]
  obtain ⟨e0, e1, e2, e3, e4, e5⟩ := idx_facts t
  funext j
  show k5_pay1 (iblk5 V c 0 t) (iblk5 V c 1 t) j
      = Spec.addArrays (V c main_v53) (V c main_v64) (((cfg5.win 2).blk t).view.emb j)
  refine (payload_apply (iblk5 V c 0 t) (iblk5 V c 1 t) j).trans ?_
  have hj0 : (j 0).val < 6000 := (j 0).isLt
  have hj1 : (j 1).val < 64 := (j 1).isLt
  have h0 : ((cfg5.win 0).blk t).view.emb j = ((cfg5.win 2).blk t).view.emb j := by
    funext d; apply Fin.ext
    match d with
    | ⟨0, _⟩ => show win5_0.index t (0 : Fin 2) * 6000 + 1 * (j 0).val = win5_2.index t (0 : Fin 2) * 6000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext d; apply Fin.ext
    match d with
    | ⟨0, _⟩ => show win5_1.index t (0 : Fin 2) * 6000 + 1 * (j 0).val = win5_2.index t (0 : Fin 2) * 6000 + 1 * (j 0).val; omega
    | ⟨1, _⟩ => show win5_1.index t (1 : Fin 2) * 64 + 1 * (j 1).val = win5_2.index t (1 : Fin 2) * 64 + 1 * (j 1).val; omega
  have key : ∀ (P Q : S150000x64.Idx → EReal),
      P (((cfg5.win 0).blk t).view.emb j) + Q (((cfg5.win 1).blk t).view.emb j)
        = Spec.addArrays P Q (((cfg5.win 2).blk t).view.emb j) := by
    intro P Q
    rw [h0, h1]
    rfl
  exact key (V c main_v53) (V c main_v64)

/-- An index of the result array is in point `t`'s block iff each coordinate is in the block's range on its axis. -/
theorem mem_blk (t : Fin cfg5.N) (i : S150000x64.Idx) :
    i ∈ ((cfg5.win 2).blk t).view.set ↔ ∀ d : Fin 2, win5_2.index t d * S6000x64.size d ≤ (i d).val
      ∧ (i d).val < win5_2.index t d * S6000x64.size d + S6000x64.size d := by
  show i ∈ ((View.whole main_v65).slice (win5_2.rect t)).set ↔ _
  rw [View.set_slice_whole, Rect.mem_set_unit]
  exact Iff.rfl

/-- Node row n lies in the block of point n / 6000: the 25 blocks cover the array. -/
theorem cover (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  have hlt : (i 0).val / 6000 < grid5.N := by rw [N_5]; omega
  obtain ⟨-, -, -, -, e4, e5⟩ := idx_facts ⟨(i 0).val / 6000, hlt⟩
  have e4' : win5_2.index ⟨(i 0).val / 6000, hlt⟩ (0 : Fin 2) = (i 0).val / 6000 := e4
  refine ⟨⟨(i 0).val / 6000, hlt⟩, flush5_2 _, ?_⟩
  rw [mem_blk]
  intro d
  match d with
  | ⟨0, _⟩ =>
    show win5_2.index ⟨(i 0).val / 6000, hlt⟩ (0 : Fin 2) * 6000 ≤ (i 0).val
      ∧ (i 0).val < win5_2.index ⟨(i 0).val / 6000, hlt⟩ (0 : Fin 2) * 6000 + 6000
    omega
  | ⟨1, _⟩ =>
    show win5_2.index ⟨(i 0).val / 6000, hlt⟩ (1 : Fin 2) * 64 ≤ (i 1).val
      ∧ (i 1).val < win5_2.index ⟨(i 0).val / 6000, hlt⟩ (1 : Fin 2) * 64 + 64
    omega

/-- THE ARRAY the region leaves: the sum of the two arrays it was entered with. -/
theorem array_eq (c : Dev nD) :
    (dat5 V c).arrAt 2 cfg5.N = Spec.addArrays (V c main_v53) (V c main_v64) :=
  (dat5 V c).arrAt_eq_of_cover 2 _ (fun t _ => flushed_eq V c t) cover

end Cert.KernelIdeal.Add5

end
-- ==== Proof.RegionQuarter6.lean ====
/-
  Grid region 6 (the final averaging): the array it leaves is the array it reads with every entry times 0.25.

  The region walks the 150,000 node rows in 25 blocks of 6,000 rows; at block t the body loads rows
  6000·t … 6000·t+5999 and stores each entry times the float 0.25. Every node row lies in exactly the block
  n / 6000, so the write-backs together are the one whole-array function `Spec.quarter`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Quarter6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an entry of a block: the loaded entry times the float 0.25. -/
theorem payload_apply (x : Vec Ideal S6000x64 .f32) (j : S6000x64.Idx) :
    k6_pay1 x j = x j * Ideal.ofBits .f32 0x3E800000#32 := by
  unfold k6_pay1
  simp only [shapeCast_self]
  rfl

/-- The printed index maps over the 25 grid points: both windows' block index is (t, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- What point `t` writes back is block `t` of the quartered array. -/
theorem flushed_eq (c : Dev nD) (t : Fin cfg6.N) :
    (dat6 V c).flushed 1 t = ((cfg6.win 1).blk t).view.read (Elt Ideal) (Spec.quarter (V c main_v65)) := by
  show (cfg6.win 1).cut (grid6.coords t) ((dat6 V c).after 1 t) = _
  rw [after6_1]
  unfold out6_1
  rw [View.canon_unit_zero origin]
  simp only [View.ld_unit_zero (S := S6000x64) origin]
  obtain ⟨e0, e1, e2, e3⟩ := idx_facts t
  funext j
  show k6_pay1 (iblk6 V c 0 t) j = Spec.quarter (V c main_v65) (((cfg6.win 1).blk t).view.emb j)
  refine (payload_apply (iblk6 V c 0 t) j).trans ?_
  have hj0 : (j 0).val < 6000 := (j 0).isLt
  have hj1 : (j 1).val < 64 := (j 1).isLt
  have h0 : ((cfg6.win 0).blk t).view.emb j = ((cfg6.win 1).blk t).view.emb j := by
    funext d; apply Fin.ext
    match d with
    | ⟨0, _⟩ => show win6_0.index t (0 : Fin 2) * 6000 + 1 * (j 0).val = win6_1.index t (0 : Fin 2) * 6000 + 1 * (j 0).val; omega
    | ⟨1, _⟩ => show win6_0.index t (1 : Fin 2) * 64 + 1 * (j 1).val = win6_1.index t (1 : Fin 2) * 64 + 1 * (j 1).val; omega
  have key : ∀ (P : S150000x64.Idx → EReal),
      P (((cfg6.win 0).blk t).view.emb j) * Ideal.ofBits .f32 0x3E800000#32
        = Spec.quarter P (((cfg6.win 1).blk t).view.emb j) := by
    intro P
    rw [h0]
    rfl
  exact key (V c main_v65)

/-- An index of the result array is in point `t`'s block iff each coordinate is in the block's range on its axis. -/
theorem mem_blk (t : Fin cfg6.N) (i : S150000x64.Idx) :
    i ∈ ((cfg6.win 1).blk t).view.set ↔ ∀ d : Fin 2, win6_1.index t d * S6000x64.size d ≤ (i d).val
      ∧ (i d).val < win6_1.index t d * S6000x64.size d + S6000x64.size d := by
  show i ∈ ((View.whole main_v66).slice (win6_1.rect t)).set ↔ _
  rw [View.set_slice_whole, Rect.mem_set_unit]
  exact Iff.rfl

/-- Node row n lies in the block of point n / 6000: the 25 blocks cover the array. -/
theorem cover (i : S150000x64.Idx) :
    ∃ t : Fin cfg6.N, (cfg6.win 1).flush t = true ∧ i ∈ ((cfg6.win 1).blk t).view.set := by
  have hi0 : (i 0).val < 150000 := (i 0).isLt
  have hi1 : (i 1).val < 64 := (i 1).isLt
  have hlt : (i 0).val / 6000 < grid6.N := by rw [N_6]; omega
  obtain ⟨-, -, e2, e3⟩ := idx_facts ⟨(i 0).val / 6000, hlt⟩
  have e2' : win6_1.index ⟨(i 0).val / 6000, hlt⟩ (0 : Fin 2) = (i 0).val / 6000 := e2
  refine ⟨⟨(i 0).val / 6000, hlt⟩, flush6_1 _, ?_⟩
  rw [mem_blk]
  intro d
  match d with
  | ⟨0, _⟩ =>
    show win6_1.index ⟨(i 0).val / 6000, hlt⟩ (0 : Fin 2) * 6000 ≤ (i 0).val
      ∧ (i 0).val < win6_1.index ⟨(i 0).val / 6000, hlt⟩ (0 : Fin 2) * 6000 + 6000
    omega
  | ⟨1, _⟩ =>
    show win6_1.index ⟨(i 0).val / 6000, hlt⟩ (1 : Fin 2) * 64 ≤ (i 1).val
      ∧ (i 1).val < win6_1.index ⟨(i 0).val / 6000, hlt⟩ (1 : Fin 2) * 64 + 64
    omega

/-- THE ARRAY the region leaves: the array it was entered with, every entry times 0.25. -/
theorem array_eq (c : Dev nD) : (dat6 V c).arrAt 1 cfg6.N = Spec.quarter (V c main_v65) :=
  (dat6 V c).arrAt_eq_of_cover 1 _ (fun t _ => flushed_eq V c t) cover

end Cert.KernelIdeal.Quarter6

end
-- ==== Proof.Algebra.lean ====
/-
  The three laws that join the kernel's grid regions to the reference's host operations, over the extended reals.

  * Scaling. The kernel multiplies an edge row by the factor of its source node and then by the factor of its target
    node, (x · a) · b; the reference multiplies the two factors first and spreads the product over the row,
    x · (a · b). Multiplication of extended reals is associative, infinities and zero included, so the two agree
    at every entry; no finiteness is needed.
  * Accumulation. Both add the two node arrays entry by entry.
  * Averaging. The kernel multiplies by the float 0.25, the reference divides by the float 4.0; 0.25 is exactly the
    real 1/4 and division of an extended real by the nonzero real 4 IS multiplication by 1/4.

  Each law is then read against the reference's stages (`val_main_v…`): the degree factors are recomputed by the
  reference in every layer from the same edge list, by the same operations, so its three copies are one function.
-/
import proofs.«163690_j34187939676701_2_alg».proof.Proof.RefRead
import proofs.«163690_j34187939676701_2_alg».proof.Proof.Spec
import Idealize.ShloMosaic.Lib.Pipeline.Value
import Idealize.ShloMosaic.Lib.ValueIdx

noncomputable section

namespace Cert.Bridge

open Cert.ReferenceIdeal Cert.ReferenceIdeal.Gen Cert.ReferenceIdeal.ReadP Idealize.ShloMosaic Idealize.ShloMosaic.ValueIdx

/-- A per-edge factor as a one-column array (what the kernel's windows stage). -/
def asColumn (a : FVec Ideal S4000000 .f32) : FVec Ideal S4000000x1 .f32 :=
  broadcastInDim S4000000x1 ![0] bcast_S4000000_S4000000x1_0 a

/-- The column array at edge row `e` is the factor of edge `e`. -/
theorem asColumn_apply (a : FVec Ideal S4000000 .f32) (e : Fin 4000000) : asColumn a (ix2 e (0 : Fin 1)) = a (ix1 e) :=
  broadcastInDim_apply ![0] bcast_S4000000_S4000000x1_0 a (ix2 e (0 : Fin 1)) (ix1 e)
    (fun d => match d with | ⟨0, _⟩ => rfl)

/-- SCALING: (x · a) · b row by row is x times the spread product a · b. -/
theorem scaleRows_eq (x : FVec Ideal S4000000x64 .f32) (a b : FVec Ideal S4000000 .f32) :
    Spec.scaleRows x (asColumn a) (asColumn b)
      = mulf x (broadcastInDim S4000000x64 ![0, 1] bcast_S4000000x1_S4000000x64_0_1
          (broadcastInDim S4000000x1 ![0] bcast_S4000000_S4000000x1_0 (mulf a b))) := by
  funext i
  obtain ⟨e, q, rfl⟩ : ∃ (e : Fin 4000000) (q : Fin 64), i = ix2 e q := ⟨i 0, i 1, eq_ix2 i⟩
  rw [mulf_apply,
    broadcastInDim_apply ![0, 1] bcast_S4000000x1_S4000000x64_0_1 _ (ix2 e q) (ix2 e (0 : Fin 1))
      (fun d => match d with | ⟨0, _⟩ => rfl | ⟨1, _⟩ => rfl),
    show broadcastInDim S4000000x1 ![0] bcast_S4000000_S4000000x1_0 (mulf a b) (ix2 e (0 : Fin 1)) = asColumn (mulf a b) (ix2 e (0 : Fin 1)) from rfl,
    asColumn_apply (mulf a b) e, mulf_apply]
  show x (ix2 e q) * asColumn a (ix2 e (0 : Fin 1)) * asColumn b (ix2 e (0 : Fin 1)) = _
  rw [asColumn_apply, asColumn_apply, mul_assoc]

/-- The float 4.0 is the real 4. -/
theorem ofBits_four : Ideal.ofBits .f32 0x40800000#32 = ((4 : ℝ) : EReal) := by
  simp [Ideal.ofBits, Ideal.ieee, -EReal.coe_mul]; norm_num

/-- The float 0.25 is the real 1/4. -/
theorem ofBits_quarter : Ideal.ofBits .f32 0x3E800000#32 = ((1 / 4 : ℝ) : EReal) := by
  simp [Ideal.ofBits, Ideal.ieee, -EReal.coe_mul]; norm_num

/-- AVERAGING: times 0.25 is divided by 4.0, on every extended real. -/
theorem quarter_eq (p : FVec Ideal S150000x64 .f32) :
    Spec.quarter p = Host.divf p (broadcastInDim S150000x64 ![] bcast_S_S150000x64 (constant (F := Ideal) S_ .f32 0x40800000#32)) := by
  funext i
  show p i * Ideal.ofBits .f32 0x3E800000#32 = Ideal.div (p i) (Ideal.ofBits .f32 0x40800000#32)
  rw [ofBits_four, ofBits_quarter, Ideal.div_coe (by norm_num : (4 : ℝ) ≠ 0)]

variable (x0 : (⟨S2x4000000, .i32⟩ : BufTy).Contents (Elt Ideal)) (x1 : (⟨S100000x64, .f32⟩ : BufTy).Contents (Elt Ideal))
  (x2 : (⟨S50000x64, .f32⟩ : BufTy).Contents (Elt Ideal))

/-- The reference's second and third copies of the two gathered degree factors are its first. -/
theorem factor_row2 : val_main_v62 (F := Ideal) x0 = val_main_v20 x0 := rfl
theorem factor_col2 : val_main_v69 (F := Ideal) x0 = val_main_v27 x0 := rfl
theorem factor_row3 : val_main_v104 (F := Ideal) x0 = val_main_v20 x0 := rfl
theorem factor_col3 : val_main_v111 (F := Ideal) x0 = val_main_v27 x0 := rfl

/-- Layer 1's messages: the gathered rows scaled by the two factor columns are the reference's product. -/
theorem scale_layer1 : Spec.scaleRows (val_main_v35 (F := Ideal) x0 x1 x2) (asColumn (val_main_v20 x0)) (asColumn (val_main_v27 x0))
    = val_main_v38 x0 x1 x2 :=
  (scaleRows_eq _ _ _).trans (by unfold val_main_v38 val_main_v37 val_main_v36 val_main_v28; rfl)

/-- Layer 2's messages. -/
theorem scale_layer2 : Spec.scaleRows (val_main_v77 (F := Ideal) x0 x1 x2) (asColumn (val_main_v20 x0)) (asColumn (val_main_v27 x0))
    = val_main_v80 x0 x1 x2 :=
  (scaleRows_eq _ _ _).trans (by unfold val_main_v80 val_main_v79 val_main_v78 val_main_v70; rw [factor_row2, factor_col2])

/-- Layer 3's messages. -/
theorem scale_layer3 : Spec.scaleRows (val_main_v119 (F := Ideal) x0 x1 x2) (asColumn (val_main_v20 x0)) (asColumn (val_main_v27 x0))
    = val_main_v122 x0 x1 x2 :=
  (scaleRows_eq _ _ _).trans (by unfold val_main_v122 val_main_v121 val_main_v120 val_main_v112; rw [factor_row3, factor_col3])

/-- ACCUMULATION, layer by layer: the kernel's sum of two node arrays is the reference's `add`. -/
theorem add_layer1 : Spec.addArrays (val_main_v0 (F := Ideal) x1 x2) (val_main_v41 x0 x1 x2) = val_main_v42 x0 x1 x2 := rfl
theorem add_layer2 : Spec.addArrays (val_main_v42 (F := Ideal) x0 x1 x2) (val_main_v83 x0 x1 x2) = val_main_v84 x0 x1 x2 := rfl
theorem add_layer3 : Spec.addArrays (val_main_v84 (F := Ideal) x0 x1 x2) (val_main_v125 x0 x1 x2) = val_main_v126 x0 x1 x2 := rfl

/-- The kernel's quartered accumulator is the reference's mean. -/
theorem quarter_mean : Spec.quarter (val_main_v126 (F := Ideal) x0 x1 x2) = val_main_v128 x0 x1 x2 :=
  (quarter_eq _).trans (by unfold val_main_v128 val_main_v127 val_main_cst_34; rfl)

end Cert.Bridge

end
-- ==== Proof.RegionScale2.lean ====
/-
  Grid region 2 (the per-edge scaling): the array it leaves is the row-scaled array of the three arrays it reads.

  The region walks the 4,000,000 edge rows in 800 blocks of 5,000 rows. At block t the body loads rows
  5000·t … 5000·t+4999 of the edge-by-feature array x and of the two one-column arrays a and b, and stores
  (x · a) · b, each column array spread over the 64 features of its row. Entry (e, q) of the result therefore
  depends only on x[e, q], a[e] and b[e]; every edge row lies in exactly the block e / 5000, so the blocks'
  write-backs together are the one whole-array function `Spec.scaleRows`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at entry (r, q) of a block: the loaded entry times the two factors of its row, in that order. -/
theorem payload_apply (x : Vec Ideal S5000x64 .f32) (a b : Vec Ideal S5000x1 .f32) (r : Fin 5000) (q : Fin 64) :
    k2_pay1 x a b (ix2 r q) = x (ix2 r q) * a (ix2 r (0 : Fin 1)) * b (ix2 r (0 : Fin 1)) := by
  unfold k2_pay1
  simp only [shapeCast_self]
  rw [mulf_apply, mulf_apply,
    broadcastTo_apply a broadcasts_S5000x1_S5000x64 (ix2 r q) (ix2 r (0 : Fin 1)) (fun d => match d with | ⟨0, _⟩ => rfl | ⟨1, _⟩ => rfl),
    broadcastTo_apply b broadcasts_S5000x1_S5000x64 (ix2 r q) (ix2 r (0 : Fin 1)) (fun d => match d with | ⟨0, _⟩ => rfl | ⟨1, _⟩ => rfl)]

/-- The printed index maps over the 800 grid points: every window's block index is (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the row-scaled array of the three arrays as the region finds them. -/
theorem flushed_eq (c : Dev nD) (t : Fin cfg2.N) :
    (dat2 V c).flushed 3 t
      = ((cfg2.win 3).blk t).view.read (Elt Ideal) (Spec.scaleRows (V c main_v48) (V c main_v21) (V c main_v29)) := by
  show (cfg2.win 3).cut (grid2.coords t) ((dat2 V c).after 3 t) = _
  rw [after2_3]
  unfold out2_3
  rw [View.canon_unit_zero origin]
  simp only [View.ld_unit_zero (S := S5000x64) origin, View.ld_unit_zero (S := S5000x1) origin]
  obtain ⟨e0, e1, e2, e3, e4, e5, e6, e7⟩ := idx_facts t
  funext j
  obtain ⟨r, q, rfl⟩ : ∃ (r : Fin 5000) (q : Fin 64), j = ix2 r q := ⟨j 0, j 1, eq_ix2 j⟩
  show k2_pay1 (iblk2 V c 0 t) (iblk2 V c 1 t) (iblk2 V c 2 t) (ix2 r q)
      = Spec.scaleRows (V c main_v48) (V c main_v21) (V c main_v29) (((cfg2.win 3).blk t).view.emb (ix2 r q))
  refine (payload_apply (iblk2 V c 0 t) (iblk2 V c 1 t) (iblk2 V c 2 t) r q).trans ?_
  have hr : r.val < 5000 := r.isLt
  have hq : q.val < 64 := q.isLt
  have h0 : ((cfg2.win 0).blk t).view.emb (ix2 r q) = ((cfg2.win 3).blk t).view.emb (ix2 r q) := by
    funext d; apply Fin.ext
    match d with
    | ⟨0, _⟩ => show win2_0.index t (0 : Fin 2) * 5000 + 1 * r.val = win2_3.index t (0 : Fin 2) * 5000 + 1 * r.val; omega
    | ⟨1, _⟩ => show win2_0.index t (1 : Fin 2) * 64 + 1 * q.val = win2_3.index t (1 : Fin 2) * 64 + 1 * q.val; omega
  have h1 : ((cfg2.win 1).blk t).view.emb (ix2 r (0 : Fin 1)) = Spec.rowOf (((cfg2.win 3).blk t).view.emb (ix2 r q)) := by
    funext d; apply Fin.ext
    match d with
    | ⟨0, _⟩ => show win2_1.index t (0 : Fin 2) * 5000 + 1 * r.val = win2_3.index t (0 : Fin 2) * 5000 + 1 * r.val; omega
    | ⟨1, _⟩ => show win2_1.index t (1 : Fin 2) * 1 + 1 * 0 = 0; omega
  have h2 : ((cfg2.win 2).blk t).view.emb (ix2 r (0 : Fin 1)) = Spec.rowOf (((cfg2.win 3).blk t).view.emb (ix2 r q)) := by
    funext d; apply Fin.ext
    match d with
    | ⟨0, _⟩ => show win2_2.index t (0 : Fin 2) * 5000 + 1 * r.val = win2_3.index t (0 : Fin 2) * 5000 + 1 * r.val; omega
    | ⟨1, _⟩ => show win2_2.index t (1 : Fin 2) * 1 + 1 * 0 = 0; omega
  have key : ∀ (X : S4000000x64.Idx → EReal) (A B : S4000000x1.Idx → EReal),
      X (((cfg2.win 0).blk t).view.emb (ix2 r q)) * A (((cfg2.win 1).blk t).view.emb (ix2 r (0 : Fin 1)))
          * B (((cfg2.win 2).blk t).view.emb (ix2 r (0 : Fin 1)))
        = Spec.scaleRows X A B (((cfg2.win 3).blk t).view.emb (ix2 r q)) := by
    intro X A B
    rw [h0, h1, h2]
    rfl
  exact key (V c main_v48) (V c main_v21) (V c main_v29)

/-- An index of the result array is in point `t`'s block iff each coordinate is in the block's range on its axis. -/
theorem mem_blk (t : Fin cfg2.N) (i : S4000000x64.Idx) :
    i ∈ ((cfg2.win 3).blk t).view.set ↔ ∀ d : Fin 2, win2_3.index t d * S5000x64.size d ≤ (i d).val
      ∧ (i d).val < win2_3.index t d * S5000x64.size d + S5000x64.size d := by
  show i ∈ ((View.whole main_v49).slice (win2_3.rect t)).set ↔ _
  rw [View.set_slice_whole, Rect.mem_set_unit]
  exact Iff.rfl

/-- Edge row e lies in the block of point e / 5000: the 800 blocks cover the array. -/
theorem cover (i : S4000000x64.Idx) :
    ∃ t : Fin cfg2.N, (cfg2.win 3).flush t = true ∧ i ∈ ((cfg2.win 3).blk t).view.set := by
  have hi0 : (i 0).val < 4000000 := (i 0).isLt
  have hi1 : (i 1).val < 64 := (i 1).isLt
  have hlt : (i 0).val / 5000 < grid2.N := by rw [N_2]; omega
  obtain ⟨-, -, -, -, -, -, e6, e7⟩ := idx_facts ⟨(i 0).val / 5000, hlt⟩
  have e6' : win2_3.index ⟨(i 0).val / 5000, hlt⟩ (0 : Fin 2) = (i 0).val / 5000 := e6
  refine ⟨⟨(i 0).val / 5000, hlt⟩, flush2_3 _, ?_⟩
  rw [mem_blk]
  intro d
  match d with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    omega
  | ⟨1, _⟩ =>
    show win2_3.index ⟨(i 0).val / 5000, hlt⟩ (1 : Fin 2) * 64 ≤ (i 1).val
      ∧ (i 1).val < win2_3.index ⟨(i 0).val / 5000, hlt⟩ (1 : Fin 2) * 64 + 64
    omega

/-- THE ARRAY the region leaves: the row-scaled array of the three arrays it was entered with. -/
theorem array_eq (c : Dev nD) :
    (dat2 V c).arrAt 3 cfg2.N = Spec.scaleRows (V c main_v48) (V c main_v21) (V c main_v29) :=
  (dat2 V c).arrAt_eq_of_cover 3 _ (fun t _ => flushed_eq V c t) cover

end Cert.KernelIdeal.Scale2

end
-- ==== Proof.RegionAdd3.lean ====
/-
  Grid region 3 (the per-node accumulation): the array it leaves is the entrywise sum of the two arrays it reads.

  The region walks the 150,000 node rows in 25 blocks of 6,000 rows; at block t the body loads rows
  6000·t … 6000·t+5999 of both node-by-feature arrays and stores their sum. Every node row lies in exactly
  the block n / 6000, so the write-backs together are the one whole-array function `Spec.addArrays`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Add3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an entry of a block: the sum of the two loaded entries. -/
theorem payload_apply (x y : Vec Ideal S6000x64 .f32) (j : S6000x64.Idx) : k3_pay1 x y j = x j + y j := by
  unfold k3_pay1
  simp only [shapeCast_self]
  rfl

/-- The printed index maps over the 25 grid points: every window's block index is (t, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the sum of the two arrays as the region finds them. -/
theorem flushed_eq (c : Dev nD) (t : Fin cfg3.N) :
    (dat3 V c).flushed 2 t
      = ((cfg3.win 2).blk t).view.read (Elt Ideal) (Spec.addArrays (V c main_v41) (V c main_v52)) := by
  show (cfg3.win 2).cut (grid3.coords t) ((dat3 V c).after 2 t) = _
  rw [after3_2]
  unfold out3_2
  rw [View.canon_unit_zero origin]
  simp only [View.ld_unit_zero (S := S6000x64) origin]
  obtain ⟨e0, e1, e2, e3, e4, e5⟩ := idx_facts t
  funext j
  show k3_pay1 (iblk3 V c 0 t) (iblk3 V c 1 t) j
      = Spec.addArrays (V c main_v41) (V c main_v52) (((cfg3.win 2).blk t).view.emb j)
  refine (payload_apply (iblk3 V c 0 t) (iblk3 V c 1 t) j).trans ?_
  have hj0 : (j 0).val < 6000 := (j 0).isLt
  have hj1 : (j 1).val < 64 := (j 1).isLt
  have h0 : ((cfg3.win 0).blk t).view.emb j = ((cfg3.win 2).blk t).view.emb j := by
    funext d; apply Fin.ext
    match d with
    | ⟨0, _⟩ => show win3_0.index t (0 : Fin 2) * 6000 + 1 * (j 0).val = win3_2.index t (0 : Fin 2) * 6000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext d; apply Fin.ext
    match d with
    | ⟨0, _⟩ => show win3_1.index t (0 : Fin 2) * 6000 + 1 * (j 0).val = win3_2.index t (0 : Fin 2) * 6000 + 1 * (j 0).val; omega
    | ⟨1, _⟩ => show win3_1.index t (1 : Fin 2) * 64 + 1 * (j 1).val = win3_2.index t (1 : Fin 2) * 64 + 1 * (j 1).val; omega
  have key : ∀ (P Q : S150000x64.Idx → EReal),
      P (((cfg3.win 0).blk t).view.emb j) + Q (((cfg3.win 1).blk t).view.emb j)
        = Spec.addArrays P Q (((cfg3.win 2).blk t).view.emb j) := by
    intro P Q
    rw [h0, h1]
    rfl
  exact key (V c main_v41) (V c main_v52)

/-- An index of the result array is in point `t`'s block iff each coordinate is in the block's range on its axis. -/
theorem mem_blk (t : Fin cfg3.N) (i : S150000x64.Idx) :
    i ∈ ((cfg3.win 2).blk t).view.set ↔ ∀ d : Fin 2, win3_2.index t d * S6000x64.size d ≤ (i d).val
      ∧ (i d).val < win3_2.index t d * S6000x64.size d + S6000x64.size d := by
  show i ∈ ((View.whole main_v53).slice (win3_2.rect t)).set ↔ _
  rw [View.set_slice_whole, Rect.mem_set_unit]
  exact Iff.rfl

/-- Node row n lies in the block of point n / 6000: the 25 blocks cover the array. -/
theorem cover (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  have hlt : (i 0).val / 6000 < grid3.N := by rw [N_3]; omega
  obtain ⟨-, -, -, -, e4, e5⟩ := idx_facts ⟨(i 0).val / 6000, hlt⟩
  have e4' : win3_2.index ⟨(i 0).val / 6000, hlt⟩ (0 : Fin 2) = (i 0).val / 6000 := e4
  refine ⟨⟨(i 0).val / 6000, hlt⟩, flush3_2 _, ?_⟩
  rw [mem_blk]
  intro d
  match d with
  | ⟨0, _⟩ =>
    show win3_2.index ⟨(i 0).val / 6000, hlt⟩ (0 : Fin 2) * 6000 ≤ (i 0).val
      ∧ (i 0).val < win3_2.index ⟨(i 0).val / 6000, hlt⟩ (0 : Fin 2) * 6000 + 6000
    omega
  | ⟨1, _⟩ =>
    show win3_2.index ⟨(i 0).val / 6000, hlt⟩ (1 : Fin 2) * 64 ≤ (i 1).val
      ∧ (i 1).val < win3_2.index ⟨(i 0).val / 6000, hlt⟩ (1 : Fin 2) * 64 + 64
    omega

/-- THE ARRAY the region leaves: the sum of the two arrays it was entered with. -/
theorem array_eq (c : Dev nD) :
    (dat3 V c).arrAt 2 cfg3.N = Spec.addArrays (V c main_v41) (V c main_v52) :=
  (dat3 V c).arrAt_eq_of_cover 2 _ (fun t _ => flushed_eq V c t) cover

end Cert.KernelIdeal.Add3

end
-- ==== Proof.RegionScale0.lean ====
/-
  Grid region 0 (the per-edge scaling): the array it leaves is the row-scaled array of the three arrays it reads.

  The region walks the 4,000,000 edge rows in 800 blocks of 5,000 rows. At block t the body loads rows
  5000·t … 5000·t+4999 of the edge-by-feature array x and of the two one-column arrays a and b, and stores
  (x · a) · b, each column array spread over the 64 features of its row. Entry (e, q) of the result therefore
  depends only on x[e, q], a[e] and b[e]; every edge row lies in exactly the block e / 5000, so the blocks'
  write-backs together are the one whole-array function `Spec.scaleRows`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Scale0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at entry (r, q) of a block: the loaded entry times the two factors of its row, in that order. -/
theorem payload_apply (x : Vec Ideal S5000x64 .f32) (a b : Vec Ideal S5000x1 .f32) (r : Fin 5000) (q : Fin 64) :
    k0_pay1 x a b (ix2 r q) = x (ix2 r q) * a (ix2 r (0 : Fin 1)) * b (ix2 r (0 : Fin 1)) := by
  unfold k0_pay1
  simp only [shapeCast_self]
  rw [mulf_apply, mulf_apply,
    broadcastTo_apply a broadcasts_S5000x1_S5000x64 (ix2 r q) (ix2 r (0 : Fin 1)) (fun d => match d with | ⟨0, _⟩ => rfl | ⟨1, _⟩ => rfl),
    broadcastTo_apply b broadcasts_S5000x1_S5000x64 (ix2 r q) (ix2 r (0 : Fin 1)) (fun d => match d with | ⟨0, _⟩ => rfl | ⟨1, _⟩ => rfl)]

/-- The printed index maps over the 800 grid points: every window's block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the row-scaled array of the three arrays as the region finds them. -/
theorem flushed_eq (c : Dev nD) (t : Fin cfg0.N) :
    (dat0 V c).flushed 3 t
      = ((cfg0.win 3).blk t).view.read (Elt Ideal) (Spec.scaleRows (V c main_v36) (V c main_v21) (V c main_v29)) := by
  show (cfg0.win 3).cut (grid0.coords t) ((dat0 V c).after 3 t) = _
  rw [after0_3]
  unfold out0_3
  rw [View.canon_unit_zero origin]
  simp only [View.ld_unit_zero (S := S5000x64) origin, View.ld_unit_zero (S := S5000x1) origin]
  obtain ⟨e0, e1, e2, e3, e4, e5, e6, e7⟩ := idx_facts t
  funext j
  obtain ⟨r, q, rfl⟩ : ∃ (r : Fin 5000) (q : Fin 64), j = ix2 r q := ⟨j 0, j 1, eq_ix2 j⟩
  show k0_pay1 (iblk0 V c 0 t) (iblk0 V c 1 t) (iblk0 V c 2 t) (ix2 r q)
      = Spec.scaleRows (V c main_v36) (V c main_v21) (V c main_v29) (((cfg0.win 3).blk t).view.emb (ix2 r q))
  refine (payload_apply (iblk0 V c 0 t) (iblk0 V c 1 t) (iblk0 V c 2 t) r q).trans ?_
  have hr : r.val < 5000 := r.isLt
  have hq : q.val < 64 := q.isLt
  have h0 : ((cfg0.win 0).blk t).view.emb (ix2 r q) = ((cfg0.win 3).blk t).view.emb (ix2 r q) := by
    funext d; apply Fin.ext
    match d with
    | ⟨0, _⟩ => show win0_0.index t (0 : Fin 2) * 5000 + 1 * r.val = win0_3.index t (0 : Fin 2) * 5000 + 1 * r.val; omega
    | ⟨1, _⟩ => show win0_0.index t (1 : Fin 2) * 64 + 1 * q.val = win0_3.index t (1 : Fin 2) * 64 + 1 * q.val; omega
  have h1 : ((cfg0.win 1).blk t).view.emb (ix2 r (0 : Fin 1)) = Spec.rowOf (((cfg0.win 3).blk t).view.emb (ix2 r q)) := by
    funext d; apply Fin.ext
    match d with
    | ⟨0, _⟩ => show win0_1.index t (0 : Fin 2) * 5000 + 1 * r.val = win0_3.index t (0 : Fin 2) * 5000 + 1 * r.val; omega
    | ⟨1, _⟩ => show win0_1.index t (1 : Fin 2) * 1 + 1 * 0 = 0; omega
  have h2 : ((cfg0.win 2).blk t).view.emb (ix2 r (0 : Fin 1)) = Spec.rowOf (((cfg0.win 3).blk t).view.emb (ix2 r q)) := by
    funext d; apply Fin.ext
    match d with
    | ⟨0, _⟩ => show win0_2.index t (0 : Fin 2) * 5000 + 1 * r.val = win0_3.index t (0 : Fin 2) * 5000 + 1 * r.val; omega
    | ⟨1, _⟩ => show win0_2.index t (1 : Fin 2) * 1 + 1 * 0 = 0; omega
  have key : ∀ (X : S4000000x64.Idx → EReal) (A B : S4000000x1.Idx → EReal),
      X (((cfg0.win 0).blk t).view.emb (ix2 r q)) * A (((cfg0.win 1).blk t).view.emb (ix2 r (0 : Fin 1)))
          * B (((cfg0.win 2).blk t).view.emb (ix2 r (0 : Fin 1)))
        = Spec.scaleRows X A B (((cfg0.win 3).blk t).view.emb (ix2 r q)) := by
    intro X A B
    rw [h0, h1, h2]
    rfl
  exact key (V c main_v36) (V c main_v21) (V c main_v29)

/-- An index of the result array is in point `t`'s block iff each coordinate is in the block's range on its axis. -/
theorem mem_blk (t : Fin cfg0.N) (i : S4000000x64.Idx) :
    i ∈ ((cfg0.win 3).blk t).view.set ↔ ∀ d : Fin 2, win0_3.index t d * S5000x64.size d ≤ (i d).val
      ∧ (i d).val < win0_3.index t d * S5000x64.size d + S5000x64.size d := by
  show i ∈ ((View.whole main_v37).slice (win0_3.rect t)).set ↔ _
  rw [View.set_slice_whole, Rect.mem_set_unit]
  exact Iff.rfl

/-- Edge row e lies in the block of point e / 5000: the 800 blocks cover the array. -/
theorem cover (i : S4000000x64.Idx) :
    ∃ t : Fin cfg0.N, (cfg0.win 3).flush t = true ∧ i ∈ ((cfg0.win 3).blk t).view.set := by
  have hi0 : (i 0).val < 4000000 := (i 0).isLt
  have hi1 : (i 1).val < 64 := (i 1).isLt
  have hlt : (i 0).val / 5000 < grid0.N := by rw [N_0]; omega
  obtain ⟨-, -, -, -, -, -, e6, e7⟩ := idx_facts ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_blk]
  intro d
  match d with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    omega

/-- THE ARRAY the region leaves: the row-scaled array of the three arrays it was entered with. -/
theorem array_eq (c : Dev nD) :
    (dat0 V c).arrAt 3 cfg0.N = Spec.scaleRows (V c main_v36) (V c main_v21) (V c main_v29) :=
  (dat0 V c).arrAt_eq_of_cover 3 _ (fun t _ => flushed_eq V c t) cover

end Cert.KernelIdeal.Scale0

end
-- ==== Proof.RegionAdd1.lean ====
/-
  Grid region 1 (the per-node accumulation): the array it leaves is the entrywise sum of the two arrays it reads.

  The region walks the 150,000 node rows in 25 blocks of 6,000 rows; at block t the body loads rows
  6000·t … 6000·t+5999 of both node-by-feature arrays and stores their sum. Every node row lies in exactly
  the block n / 6000, so the write-backs together are the one whole-array function `Spec.addArrays`.
-/
import proofs.«163690_j34187939676701_2_alg».proof.Proof.Gen.KernelIdeal.Frame
import proofs.«163690_j34187939676701_2_alg».proof.Proof.Spec
import Idealize.ShloMosaic.Lib.Pipeline.Value
import Idealize.ShloMosaic.Lib.ValueIdx

noncomputable section

namespace Cert.KernelIdeal.Add1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an entry of a block: the sum of the two loaded entries. -/
theorem payload_apply (x y : Vec Ideal S6000x64 .f32) (j : S6000x64.Idx) : k1_pay1 x y j = x j + y j := by
  unfold k1_pay1
  simp only [shapeCast_self]
  rfl

/-- The printed index maps over the 25 grid points: every window's block index is (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the sum of the two arrays as the region finds them. -/
theorem flushed_eq (c : Dev nD) (t : Fin cfg1.N) :
    (dat1 V c).flushed 2 t
      = ((cfg1.win 2).blk t).view.read (Elt Ideal) (Spec.addArrays (V c main_v4) (V c main_v40)) := by
  show (cfg1.win 2).cut (grid1.coords t) ((dat1 V c).after 2 t) = _
  rw [after1_2]
  unfold out1_2
  rw [View.canon_unit_zero origin]
  simp only [View.ld_unit_zero (S := S6000x64) origin]
  obtain ⟨e0, e1, e2, e3, e4, e5⟩ := idx_facts t
  funext j
  show k1_pay1 (iblk1 V c 0 t) (iblk1 V c 1 t) j
      = Spec.addArrays (V c main_v4) (V c main_v40) (((cfg1.win 2).blk t).view.emb j)
  refine (payload_apply (iblk1 V c 0 t) (iblk1 V c 1 t) j).trans ?_
  have hj0 : (j 0).val < 6000 := (j 0).isLt
  have hj1 : (j 1).val < 64 := (j 1).isLt
  have h0 : ((cfg1.win 0).blk t).view.emb j = ((cfg1.win 2).blk t).view.emb j := by
    funext d; apply Fin.ext
    match d with
    | ⟨0, _⟩ => show win1_0.index t (0 : Fin 2) * 6000 + 1 * (j 0).val = win1_2.index t (0 : Fin 2) * 6000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext d; apply Fin.ext
    match d with
    | ⟨0, _⟩ => show win1_1.index t (0 : Fin 2) * 6000 + 1 * (j 0).val = win1_2.index t (0 : Fin 2) * 6000 + 1 * (j 0).val; omega
    | ⟨1, _⟩ => show win1_1.index t (1 : Fin 2) * 64 + 1 * (j 1).val = win1_2.index t (1 : Fin 2) * 64 + 1 * (j 1).val; omega
  have key : ∀ (P Q : S150000x64.Idx → EReal),
      P (((cfg1.win 0).blk t).view.emb j) + Q (((cfg1.win 1).blk t).view.emb j)
        = Spec.addArrays P Q (((cfg1.win 2).blk t).view.emb j) := by
    intro P Q
    rw [h0, h1]
    rfl
  exact key (V c main_v4) (V c main_v40)

/-- An index of the result array is in point `t`'s block iff each coordinate is in the block's range on its axis. -/
theorem mem_blk (t : Fin cfg1.N) (i : S150000x64.Idx) :
    i ∈ ((cfg1.win 2).blk t).view.set ↔ ∀ d : Fin 2, win1_2.index t d * S6000x64.size d ≤ (i d).val
      ∧ (i d).val < win1_2.index t d * S6000x64.size d + S6000x64.size d := by
  show i ∈ ((View.whole main_v41).slice (win1_2.rect t)).set ↔ _
  rw [View.set_slice_whole, Rect.mem_set_unit]
  exact Iff.rfl

/-- Node row n lies in the block of point n / 6000: the 25 blocks cover the array. -/
theorem cover (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  have hlt : (i 0).val / 6000 < grid1.N := by rw [N_1]; omega
  obtain ⟨-, -, -, -, e4, e5⟩ := idx_facts ⟨(i 0).val / 6000, hlt⟩
  have e4' : win1_2.index ⟨(i 0).val / 6000, hlt⟩ (0 : Fin 2) = (i 0).val / 6000 := e4
  refine ⟨⟨(i 0).val / 6000, hlt⟩, flush1_2 _, ?_⟩
  rw [mem_blk]
  intro d
  match d with
  | ⟨0, _⟩ =>
    show win1_2.index ⟨(i 0).val / 6000, hlt⟩ (0 : Fin 2) * 6000 ≤ (i 0).val
      ∧ (i 0).val < win1_2.index ⟨(i 0).val / 6000, hlt⟩ (0 : Fin 2) * 6000 + 6000
    omega
  | ⟨1, _⟩ =>
    show win1_2.index ⟨(i 0).val / 6000, hlt⟩ (1 : Fin 2) * 64 ≤ (i 1).val
      ∧ (i 1).val < win1_2.index ⟨(i 0).val / 6000, hlt⟩ (1 : Fin 2) * 64 + 64
    omega

/-- THE ARRAY the region leaves: the sum of the two arrays it was entered with. -/
theorem array_eq (c : Dev nD) :
    (dat1 V c).arrAt 2 cfg1.N = Spec.addArrays (V c main_v4) (V c main_v40) :=
  (dat1 V c).arrAt_eq_of_cover 2 _ (fun t _ => flushed_eq V c t) cover

end Cert.KernelIdeal.Add1

end
-- ==== Proof.Fold0.lean ====
/-
  The kernel's buffers as the first scaling region finds them: host operations of the three launch arguments.

  Before its first grid region the kernel's @main splits the edge list into target and source rows, joins the user and
  item rows into one node table, counts each node's degree (a scatter-add of ones), takes the power -1/2 where the
  degree is positive and zero elsewhere (a called `where`), gathers that factor at both ends of every edge, and gathers
  the source nodes' rows of the node table. These are, operation for operation, the reference's first stages; the
  generated frame names the buffer contents after each of the three host stretches `Gen.W1`, `Gen.W2`, `Gen.W3`.
-/
import proofs.«163690_j34187939676701_2_alg».proof.Proof.Gen.KernelIdeal.Frame
import proofs.«163690_j34187939676701_2_alg».proof.Proof.Algebra
import Idealize.ShloMosaic.Lib.StableHlo.Run
import Idealize.ShloMosaic.Lib.Pipeline.Value

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.Pipeline (Dat)
open Cert.ReferenceIdeal.ReadP

variable (m : (ℓ : Loc nD τ sig) → Buf (Elt Ideal) ℓ) (ρ : Dev nD → PrngReg) (c : Dev nD)

/-- The three launch arguments on core `c`: the edge list, the user rows, the item rows. -/
abbrev edges : (⟨Cert.ReferenceIdeal.S2x4000000, .i32⟩ : BufTy).Contents (Elt Ideal) := m ((c.tc : Thread nD τ).loc main_arg0)
abbrev users : (⟨Cert.ReferenceIdeal.S100000x64, .f32⟩ : BufTy).Contents (Elt Ideal) := m ((c.tc : Thread nD τ).loc main_arg1)
abbrev items : (⟨Cert.ReferenceIdeal.S50000x64, .f32⟩ : BufTy).Contents (Elt Ideal) := m ((c.tc : Thread nD τ).loc main_arg2)

/-! ## After the first stretch: the rows, the node table, the degree test and the power -/

/-- The edges' target rows. -/
theorem W1_v1 : W1 m ρ c (Proc.devRef .tc main_v1) = val_main_v2 (edges m c) := by
  dsimp only [W1, hostOps0]
  after_results_simp
  rfl
/-- The edges' source rows. -/
theorem W1_v3 : W1 m ρ c (Proc.devRef .tc main_v3) = val_main_v4 (edges m c) := by
  dsimp only [W1, hostOps0]
  after_results_simp
  rfl
/-- The node table: user rows above item rows. -/
theorem W1_v4 : W1 m ρ c (Proc.devRef .tc main_v4) = val_main_v0 (users m c) (items m c) := by
  dsimp only [W1, hostOps0]
  after_results_simp
  rfl
/-- Which nodes have positive degree. -/
theorem W1_v10 : W1 m ρ c (Proc.devRef .tc main_v10) = val_main_v10 (edges m c) := by
  dsimp only [W1, hostOps0]
  after_results_simp
  rfl
/-- Every node's degree to the power -1/2. -/
theorem W1_v12 : W1 m ρ c (Proc.devRef .tc main_v12) = val_main_v12 (edges m c) := by
  dsimp only [W1, hostOps0]
  after_results_simp
  rfl
/-- The scalar zero the \`where\` falls back to. -/
theorem W1_cst_3 : W1 m ρ c (Proc.devRef .tc main_cst_3) = val_main_cst_3 (F := Ideal) := by
  dsimp only [W1, hostOps0]
  after_results_simp
  rfl

/-! ## After the called `where`: the degree factors -/

/-- The `where` that zeroes the factor of a node without edges is a called function; its operations carry their operands
    to the callee's buffer types and back, which changes nothing: it is `select` of the three operands, the scalar spread
    over the nodes. -/
theorem where_call (A : (⟨S150000, .i1⟩ : BufTy).Contents (Elt Ideal)) (B : (⟨S150000, .f32⟩ : BufTy).Contents (Elt Ideal))
    (z : (⟨S_, .f32⟩ : BufTy).Contents (Elt Ideal)) :
    (TRef.of (sig := sig) (T := ⟨S150000, .f32⟩) main_v13).toBuf (Val := Elt Ideal)
      (select ((TRef.of (sig := sig) (T := ⟨S150000, .i1⟩) main_v10).ofBuf (Val := Elt Ideal) A)
        ((TRef.of (sig := sig) (T := ⟨S150000, .f32⟩) main_v12).ofBuf (Val := Elt Ideal) B)
        ((TRef.of (sig := sig) (T := ⟨S150000, .f32⟩) main_call0_v1).ofBuf (Val := Elt Ideal)
          ((TRef.of (sig := sig) (T := ⟨S150000, .f32⟩) main_call0_v1).toBuf (Val := Elt Ideal)
            (broadcastInDim S150000 ![] bcast_S_S150000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_3).ofBuf (Val := Elt Ideal) z))))))))
      = select A B (broadcastInDim S150000 ![] bcast_S_S150000 (id z)) := rfl

/-- Every node's degree factor: degree to the power -1/2, zero for a node without edges. -/
theorem W2_v13 : W2 m ρ c (Proc.devRef .tc main_v13) = val_main_v13 (edges m c) := by
  dsimp only [W2, hostOps0_1]
  generalize hX : W1 m ρ c = X
  after_results_simp
  subst hX
  rw [W1_v10, W1_v12, W1_cst_3]
  exact (where_call _ _ _).trans (by unfold val_main_v13 val_main_call0_v1 val_main_call0_v0; rfl)
theorem W2_v1 : W2 m ρ c (Proc.devRef .tc main_v1) = val_main_v2 (edges m c) := by
  dsimp only [W2, hostOps0_1]
  generalize hX : W1 m ρ c = X
  after_results_simp
  subst hX
  exact W1_v1 m ρ c
theorem W2_v3 : W2 m ρ c (Proc.devRef .tc main_v3) = val_main_v4 (edges m c) := by
  dsimp only [W2, hostOps0_1]
  generalize hX : W1 m ρ c = X
  after_results_simp
  subst hX
  exact W1_v3 m ρ c
theorem W2_v4 : W2 m ρ c (Proc.devRef .tc main_v4) = val_main_v0 (users m c) (items m c) := by
  dsimp only [W2, hostOps0_1]
  generalize hX : W1 m ρ c = X
  after_results_simp
  subst hX
  exact W1_v4 m ρ c

/-! ## Entering the first scaling region -/

/-- The target nodes' degree factors, one per edge, as a column. -/
theorem W3_v21 : W3 m ρ c (Proc.devRef .tc main_v21) = asColumn (val_main_v20 (edges m c)) := by
  dsimp only [W3, hostOps0_2]
  generalize hX : W2 m ρ c = X
  after_results_simp
  subst hX
  rw [W2_v13, W2_v1]
  rfl
/-- The source nodes' degree factors, one per edge, as a column. -/
theorem W3_v29 : W3 m ρ c (Proc.devRef .tc main_v29) = asColumn (val_main_v27 (edges m c)) := by
  dsimp only [W3, hostOps0_2]
  generalize hX : W2 m ρ c = X
  after_results_simp
  subst hX
  rw [W2_v13, W2_v3]
  rfl
/-- The source nodes' rows of the node table, one per edge. -/
theorem W3_v36 : W3 m ρ c (Proc.devRef .tc main_v36) = val_main_v35 (edges m c) (users m c) (items m c) := by
  dsimp only [W3, hostOps0_2]
  generalize hX : W2 m ρ c = X
  after_results_simp
  subst hX
  rw [W2_v4, W2_v3]
  rfl
theorem W3_v1 : W3 m ρ c (Proc.devRef .tc main_v1) = val_main_v2 (edges m c) := by
  dsimp only [W3, hostOps0_2]
  generalize hX : W2 m ρ c = X
  after_results_simp
  subst hX
  exact W2_v1 m ρ c
theorem W3_v3 : W3 m ρ c (Proc.devRef .tc main_v3) = val_main_v4 (edges m c) := by
  dsimp only [W3, hostOps0_2]
  generalize hX : W2 m ρ c = X
  after_results_simp
  subst hX
  exact W2_v3 m ρ c
theorem W3_v4 : W3 m ρ c (Proc.devRef .tc main_v4) = val_main_v0 (users m c) (items m c) := by
  dsimp only [W3, hostOps0_2]
  generalize hX : W2 m ρ c = X
  after_results_simp
  subst hX
  exact W2_v4 m ρ c

end Cert.Bridge

end
-- ==== Proof.Fold1.lean ====
/-
  The kernel's buffers, boundary by boundary, through the first layer (Fold0 has them as the first region finds them).

  The generated frame names the TensorCore's buffer contents at every boundary between @main's segments
  (`Gen.W3`: entering the first scaling region, `Gen.W4`: leaving it, … ). Here each buffer that a later segment
  reads is identified, at each boundary, with a stage of the reference program applied to the three launch
  arguments: the host stretches are the reference's own operations, a scaling region leaves the reference's
  product (`scale_layer1`), an accumulating region its sum. A buffer no segment writes keeps its contents
  across the segment; an input array of a region ends the region as it entered it.
-/
import proofs.«163690_j34187939676701_2_alg».proof.Proof.Gen.KernelIdeal.Frame
import proofs.«163690_j34187939676701_2_alg».proof.Proof.RegionScale0
import proofs.«163690_j34187939676701_2_alg».proof.Proof.RegionAdd1
import proofs.«163690_j34187939676701_2_alg».proof.Proof.Algebra
import proofs.«163690_j34187939676701_2_alg».proof.Proof.Fold0
import Idealize.ShloMosaic.Lib.StableHlo.Run
import Idealize.ShloMosaic.Lib.Pipeline.Value

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.Pipeline (Dat)
open Cert.ReferenceIdeal.ReadP

variable (m : (ℓ : Loc nD τ sig) → Buf (Elt Ideal) ℓ) (ρ : Dev nD → PrngReg) (c : Dev nD)

/-! ## Leaving the first scaling region -/

/-- Layer 1's messages. -/
theorem W4_v37 : W4 m ρ c (Proc.devRef .tc main_v37) = val_main_v38 (edges m c) (users m c) (items m c) := by
  refine (W4_arr m ρ c 3).trans ((Cert.KernelIdeal.Scale0.array_eq (V3 m ρ) c).trans ?_)
  show Spec.scaleRows (W3 m ρ c (Proc.devRef .tc main_v36)) (W3 m ρ c (Proc.devRef .tc main_v21)) (W3 m ρ c (Proc.devRef .tc main_v29)) = _
  rw [W3_v36, W3_v21, W3_v29]
  exact scale_layer1 _ _ _
theorem W4_v4 : W4 m ρ c (Proc.devRef .tc main_v4) = val_main_v0 (users m c) (items m c) :=
  (W4_of_ne m ρ c main_v4 (by decide)).trans (W3_v4 m ρ c)
theorem W4_v1 : W4 m ρ c (Proc.devRef .tc main_v1) = val_main_v2 (edges m c) :=
  (W4_of_ne m ρ c main_v1 (by decide)).trans (W3_v1 m ρ c)
theorem W4_v3 : W4 m ρ c (Proc.devRef .tc main_v3) = val_main_v4 (edges m c) :=
  (W4_of_ne m ρ c main_v3 (by decide)).trans (W3_v3 m ρ c)
theorem W4_v21 : W4 m ρ c (Proc.devRef .tc main_v21) = asColumn (val_main_v20 (edges m c)) :=
  (W4_arr m ρ c 1).trans (((dat0 (V3 m ρ) c).arrAt_in 1 rfl _).trans ((A_eq0 (V3 m ρ) c 1).trans (W3_v21 m ρ c)))
theorem W4_v29 : W4 m ρ c (Proc.devRef .tc main_v29) = asColumn (val_main_v27 (edges m c)) :=
  (W4_arr m ρ c 2).trans (((dat0 (V3 m ρ) c).arrAt_in 2 rfl _).trans ((A_eq0 (V3 m ρ) c 2).trans (W3_v29 m ρ c)))

/-! ## Entering the first accumulating region: the messages summed into their target rows -/

/-- Layer 1's propagated rows. -/
theorem W5_v40 : W5 m ρ c (Proc.devRef .tc main_v40) = val_main_v41 (edges m c) (users m c) (items m c) := by
  dsimp only [W5, hostOps1]
  after_results_simp
  rw [W4_v1, W4_v37]
  rfl
theorem W5_v4 : W5 m ρ c (Proc.devRef .tc main_v4) = val_main_v0 (users m c) (items m c) := by
  dsimp only [W5, hostOps1]
  after_results_simp
  exact W4_v4 m ρ c
theorem W5_v1 : W5 m ρ c (Proc.devRef .tc main_v1) = val_main_v2 (edges m c) := by
  dsimp only [W5, hostOps1]
  after_results_simp
  exact W4_v1 m ρ c
theorem W5_v3 : W5 m ρ c (Proc.devRef .tc main_v3) = val_main_v4 (edges m c) := by
  dsimp only [W5, hostOps1]
  after_results_simp
  exact W4_v3 m ρ c
theorem W5_v21 : W5 m ρ c (Proc.devRef .tc main_v21) = asColumn (val_main_v20 (edges m c)) := by
  dsimp only [W5, hostOps1]
  after_results_simp
  exact W4_v21 m ρ c
theorem W5_v29 : W5 m ρ c (Proc.devRef .tc main_v29) = asColumn (val_main_v27 (edges m c)) := by
  dsimp only [W5, hostOps1]
  after_results_simp
  exact W4_v29 m ρ c

/-! ## Leaving the first accumulating region -/

/-- The accumulator after layer 1. -/
theorem W6_v41 : W6 m ρ c (Proc.devRef .tc main_v41) = val_main_v42 (edges m c) (users m c) (items m c) := by
  refine (W6_arr m ρ c 2).trans ((Cert.KernelIdeal.Add1.array_eq (V5 m ρ) c).trans ?_)
  show Spec.addArrays (W5 m ρ c (Proc.devRef .tc main_v4)) (W5 m ρ c (Proc.devRef .tc main_v40)) = _
  rw [W5_v4, W5_v40]
  exact add_layer1 _ _ _
theorem W6_v40 : W6 m ρ c (Proc.devRef .tc main_v40) = val_main_v41 (edges m c) (users m c) (items m c) :=
  (W6_arr m ρ c 1).trans (((dat1 (V5 m ρ) c).arrAt_in 1 rfl _).trans ((A_eq1 (V5 m ρ) c 1).trans (W5_v40 m ρ c)))
theorem W6_v1 : W6 m ρ c (Proc.devRef .tc main_v1) = val_main_v2 (edges m c) :=
  (W6_of_ne m ρ c main_v1 (by decide)).trans (W5_v1 m ρ c)
theorem W6_v3 : W6 m ρ c (Proc.devRef .tc main_v3) = val_main_v4 (edges m c) :=
  (W6_of_ne m ρ c main_v3 (by decide)).trans (W5_v3 m ρ c)
theorem W6_v21 : W6 m ρ c (Proc.devRef .tc main_v21) = asColumn (val_main_v20 (edges m c)) :=
  (W6_of_ne m ρ c main_v21 (by decide)).trans (W5_v21 m ρ c)
theorem W6_v29 : W6 m ρ c (Proc.devRef .tc main_v29) = asColumn (val_main_v27 (edges m c)) :=
  (W6_of_ne m ρ c main_v29 (by decide)).trans (W5_v29 m ρ c)

end Cert.Bridge

end
-- ==== Proof.Fold2.lean ====
/-
  The kernel's buffers, boundary by boundary, through the second layer (see Fold1 for the reading).

  The second layer gathers the source nodes' rows from the FIRST layer's propagated rows, scales them by the same two
  degree-factor columns, sums them into their target rows and adds the result to the accumulator.
-/
import proofs.«163690_j34187939676701_2_alg».proof.Proof.Gen.KernelIdeal.Frame
import proofs.«163690_j34187939676701_2_alg».proof.Proof.RegionScale2
import proofs.«163690_j34187939676701_2_alg».proof.Proof.RegionAdd3
import proofs.«163690_j34187939676701_2_alg».proof.Proof.Algebra
import proofs.«163690_j34187939676701_2_alg».proof.Proof.Fold1
import Idealize.ShloMosaic.Lib.StableHlo.Run
import Idealize.ShloMosaic.Lib.Pipeline.Value

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.Pipeline (Dat)
open Cert.ReferenceIdeal.ReadP

variable (m : (ℓ : Loc nD τ sig) → Buf (Elt Ideal) ℓ) (ρ : Dev nD → PrngReg) (c : Dev nD)

/-! ## Entering the second scaling region -/

/-- The source nodes' rows of layer 1's propagated rows, one per edge. -/
theorem W7_v48 : W7 m ρ c (Proc.devRef .tc main_v48) = val_main_v77 (edges m c) (users m c) (items m c) := by
  dsimp only [W7, hostOps2]
  after_results_simp
  rw [W6_v40, W6_v3]
  rfl
theorem W7_v41 : W7 m ρ c (Proc.devRef .tc main_v41) = val_main_v42 (edges m c) (users m c) (items m c) := by
  dsimp only [W7, hostOps2]
  after_results_simp
  exact W6_v41 m ρ c
theorem W7_v1 : W7 m ρ c (Proc.devRef .tc main_v1) = val_main_v2 (edges m c) := by
  dsimp only [W7, hostOps2]
  after_results_simp
  exact W6_v1 m ρ c
theorem W7_v3 : W7 m ρ c (Proc.devRef .tc main_v3) = val_main_v4 (edges m c) := by
  dsimp only [W7, hostOps2]
  after_results_simp
  exact W6_v3 m ρ c
theorem W7_v21 : W7 m ρ c (Proc.devRef .tc main_v21) = asColumn (val_main_v20 (edges m c)) := by
  dsimp only [W7, hostOps2]
  after_results_simp
  exact W6_v21 m ρ c
theorem W7_v29 : W7 m ρ c (Proc.devRef .tc main_v29) = asColumn (val_main_v27 (edges m c)) := by
  dsimp only [W7, hostOps2]
  after_results_simp
  exact W6_v29 m ρ c

/-! ## Leaving the second scaling region -/

/-- Layer 2's messages. -/
theorem W8_v49 : W8 m ρ c (Proc.devRef .tc main_v49) = val_main_v80 (edges m c) (users m c) (items m c) := by
  refine (W8_arr m ρ c 3).trans ((Cert.KernelIdeal.Scale2.array_eq (V7 m ρ) c).trans ?_)
  show Spec.scaleRows (W7 m ρ c (Proc.devRef .tc main_v48)) (W7 m ρ c (Proc.devRef .tc main_v21)) (W7 m ρ c (Proc.devRef .tc main_v29)) = _
  rw [W7_v48, W7_v21, W7_v29]
  exact scale_layer2 _ _ _
theorem W8_v41 : W8 m ρ c (Proc.devRef .tc main_v41) = val_main_v42 (edges m c) (users m c) (items m c) :=
  (W8_of_ne m ρ c main_v41 (by decide)).trans (W7_v41 m ρ c)
theorem W8_v1 : W8 m ρ c (Proc.devRef .tc main_v1) = val_main_v2 (edges m c) :=
  (W8_of_ne m ρ c main_v1 (by decide)).trans (W7_v1 m ρ c)
theorem W8_v3 : W8 m ρ c (Proc.devRef .tc main_v3) = val_main_v4 (edges m c) :=
  (W8_of_ne m ρ c main_v3 (by decide)).trans (W7_v3 m ρ c)
theorem W8_v21 : W8 m ρ c (Proc.devRef .tc main_v21) = asColumn (val_main_v20 (edges m c)) :=
  (W8_arr m ρ c 1).trans (((dat2 (V7 m ρ) c).arrAt_in 1 rfl _).trans ((A_eq2 (V7 m ρ) c 1).trans (W7_v21 m ρ c)))
theorem W8_v29 : W8 m ρ c (Proc.devRef .tc main_v29) = asColumn (val_main_v27 (edges m c)) :=
  (W8_arr m ρ c 2).trans (((dat2 (V7 m ρ) c).arrAt_in 2 rfl _).trans ((A_eq2 (V7 m ρ) c 2).trans (W7_v29 m ρ c)))

/-! ## Entering the second accumulating region -/

/-- Layer 2's propagated rows. -/
theorem W9_v52 : W9 m ρ c (Proc.devRef .tc main_v52) = val_main_v83 (edges m c) (users m c) (items m c) := by
  dsimp only [W9, hostOps3]
  after_results_simp
  rw [W8_v1, W8_v49]
  rfl
theorem W9_v41 : W9 m ρ c (Proc.devRef .tc main_v41) = val_main_v42 (edges m c) (users m c) (items m c) := by
  dsimp only [W9, hostOps3]
  after_results_simp
  exact W8_v41 m ρ c
theorem W9_v1 : W9 m ρ c (Proc.devRef .tc main_v1) = val_main_v2 (edges m c) := by
  dsimp only [W9, hostOps3]
  after_results_simp
  exact W8_v1 m ρ c
theorem W9_v3 : W9 m ρ c (Proc.devRef .tc main_v3) = val_main_v4 (edges m c) := by
  dsimp only [W9, hostOps3]
  after_results_simp
  exact W8_v3 m ρ c
theorem W9_v21 : W9 m ρ c (Proc.devRef .tc main_v21) = asColumn (val_main_v20 (edges m c)) := by
  dsimp only [W9, hostOps3]
  after_results_simp
  exact W8_v21 m ρ c
theorem W9_v29 : W9 m ρ c (Proc.devRef .tc main_v29) = asColumn (val_main_v27 (edges m c)) := by
  dsimp only [W9, hostOps3]
  after_results_simp
  exact W8_v29 m ρ c

/-! ## Leaving the second accumulating region -/

/-- The accumulator after layer 2. -/
theorem W10_v53 : W10 m ρ c (Proc.devRef .tc main_v53) = val_main_v84 (edges m c) (users m c) (items m c) := by
  refine (W10_arr m ρ c 2).trans ((Cert.KernelIdeal.Add3.array_eq (V9 m ρ) c).trans ?_)
  show Spec.addArrays (W9 m ρ c (Proc.devRef .tc main_v41)) (W9 m ρ c (Proc.devRef .tc main_v52)) = _
  rw [W9_v41, W9_v52]
  exact add_layer2 _ _ _
theorem W10_v52 : W10 m ρ c (Proc.devRef .tc main_v52) = val_main_v83 (edges m c) (users m c) (items m c) :=
  (W10_arr m ρ c 1).trans (((dat3 (V9 m ρ) c).arrAt_in 1 rfl _).trans ((A_eq3 (V9 m ρ) c 1).trans (W9_v52 m ρ c)))
theorem W10_v1 : W10 m ρ c (Proc.devRef .tc main_v1) = val_main_v2 (edges m c) :=
  (W10_of_ne m ρ c main_v1 (by decide)).trans (W9_v1 m ρ c)
theorem W10_v3 : W10 m ρ c (Proc.devRef .tc main_v3) = val_main_v4 (edges m c) :=
  (W10_of_ne m ρ c main_v3 (by decide)).trans (W9_v3 m ρ c)
theorem W10_v21 : W10 m ρ c (Proc.devRef .tc main_v21) = asColumn (val_main_v20 (edges m c)) :=
  (W10_of_ne m ρ c main_v21 (by decide)).trans (W9_v21 m ρ c)
theorem W10_v29 : W10 m ρ c (Proc.devRef .tc main_v29) = asColumn (val_main_v27 (edges m c)) :=
  (W10_of_ne m ρ c main_v29 (by decide)).trans (W9_v29 m ρ c)

end Cert.Bridge

end
-- ==== Proof.Fold3.lean ====
/-
  The kernel's buffers, boundary by boundary, through the third layer, the averaging and the final split
  (see Fold1 for the reading). The two results are the reference's.
-/
import proofs.«163690_j34187939676701_2_alg».proof.Proof.Gen.KernelIdeal.Frame
import proofs.«163690_j34187939676701_2_alg».proof.Proof.RegionScale4
import proofs.«163690_j34187939676701_2_alg».proof.Proof.RegionAdd5
import proofs.«163690_j34187939676701_2_alg».proof.Proof.RegionQuarter6
import proofs.«163690_j34187939676701_2_alg».proof.Proof.Algebra
import proofs.«163690_j34187939676701_2_alg».proof.Proof.Fold2
import Idealize.ShloMosaic.Lib.StableHlo.Run
import Idealize.ShloMosaic.Lib.Pipeline.Value

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.Pipeline (Dat)
open Cert.ReferenceIdeal.ReadP

variable (m : (ℓ : Loc nD τ sig) → Buf (Elt Ideal) ℓ) (ρ : Dev nD → PrngReg) (c : Dev nD)

/-! ## Entering the third scaling region -/

/-- The source nodes' rows of layer 2's propagated rows, one per edge. -/
theorem W11_v60 : W11 m ρ c (Proc.devRef .tc main_v60) = val_main_v119 (edges m c) (users m c) (items m c) := by
  dsimp only [W11, hostOps4]
  after_results_simp
  rw [W10_v52, W10_v3]
  rfl
theorem W11_v53 : W11 m ρ c (Proc.devRef .tc main_v53) = val_main_v84 (edges m c) (users m c) (items m c) := by
  dsimp only [W11, hostOps4]
  after_results_simp
  exact W10_v53 m ρ c
theorem W11_v1 : W11 m ρ c (Proc.devRef .tc main_v1) = val_main_v2 (edges m c) := by
  dsimp only [W11, hostOps4]
  after_results_simp
  exact W10_v1 m ρ c
theorem W11_v21 : W11 m ρ c (Proc.devRef .tc main_v21) = asColumn (val_main_v20 (edges m c)) := by
  dsimp only [W11, hostOps4]
  after_results_simp
  exact W10_v21 m ρ c
theorem W11_v29 : W11 m ρ c (Proc.devRef .tc main_v29) = asColumn (val_main_v27 (edges m c)) := by
  dsimp only [W11, hostOps4]
  after_results_simp
  exact W10_v29 m ρ c

/-! ## Leaving the third scaling region -/

/-- Layer 3's messages. -/
theorem W12_v61 : W12 m ρ c (Proc.devRef .tc main_v61) = val_main_v122 (edges m c) (users m c) (items m c) := by
  refine (W12_arr m ρ c 3).trans ((Cert.KernelIdeal.Scale4.array_eq (V11 m ρ) c).trans ?_)
  show Spec.scaleRows (W11 m ρ c (Proc.devRef .tc main_v60)) (W11 m ρ c (Proc.devRef .tc main_v21)) (W11 m ρ c (Proc.devRef .tc main_v29)) = _
  rw [W11_v60, W11_v21, W11_v29]
  exact scale_layer3 _ _ _
theorem W12_v53 : W12 m ρ c (Proc.devRef .tc main_v53) = val_main_v84 (edges m c) (users m c) (items m c) :=
  (W12_of_ne m ρ c main_v53 (by decide)).trans (W11_v53 m ρ c)
theorem W12_v1 : W12 m ρ c (Proc.devRef .tc main_v1) = val_main_v2 (edges m c) :=
  (W12_of_ne m ρ c main_v1 (by decide)).trans (W11_v1 m ρ c)

/-! ## Entering the third accumulating region -/

/-- Layer 3's propagated rows. -/
theorem W13_v64 : W13 m ρ c (Proc.devRef .tc main_v64) = val_main_v125 (edges m c) (users m c) (items m c) := by
  dsimp only [W13, hostOps5]
  after_results_simp
  rw [W12_v1, W12_v61]
  rfl
theorem W13_v53 : W13 m ρ c (Proc.devRef .tc main_v53) = val_main_v84 (edges m c) (users m c) (items m c) := by
  dsimp only [W13, hostOps5]
  after_results_simp
  exact W12_v53 m ρ c

/-! ## The accumulator, its average, and the two results -/

/-- The accumulator after layer 3. -/
theorem W14_v65 : W14 m ρ c (Proc.devRef .tc main_v65) = val_main_v126 (edges m c) (users m c) (items m c) := by
  refine (W14_arr m ρ c 2).trans ((Cert.KernelIdeal.Add5.array_eq (V13 m ρ) c).trans ?_)
  show Spec.addArrays (W13 m ρ c (Proc.devRef .tc main_v53)) (W13 m ρ c (Proc.devRef .tc main_v64)) = _
  rw [W13_v53, W13_v64]
  exact add_layer3 _ _ _

/-- The mean over the four layer outputs. -/
theorem W15_v66 : W15 m ρ c (Proc.devRef .tc main_v66) = val_main_v128 (edges m c) (users m c) (items m c) := by
  refine (W15_arr m ρ c 1).trans ((Cert.KernelIdeal.Quarter6.array_eq (V14 m ρ) c).trans ?_)
  show Spec.quarter (W14 m ρ c (Proc.devRef .tc main_v65)) = _
  rw [W14_v65]
  exact quarter_mean _ _ _

/-- The user rows of the mean. -/
theorem W16_v67 : W16 m ρ c (Proc.devRef .tc main_v67) = val_main_v129 (edges m c) (users m c) (items m c) := by
  dsimp only [W16, hostOps7]
  after_results_simp
  rw [W15_v66]
  rfl
/-- The item rows of the mean. -/
theorem W16_v68 : W16 m ρ c (Proc.devRef .tc main_v68) = val_main_v130 (edges m c) (users m c) (items m c) := by
  dsimp only [W16, hostOps7]
  after_results_simp
  rw [W15_v66]
  rfl

end Cert.Bridge

end
-- ==== Proof.lean ====
/-
  LightGCN propagation: three rounds of "gather the source nodes' rows, scale each edge's row by the degree factors of
  its two end nodes, sum the scaled rows into their target nodes", the running sum of the four layer outputs, and its
  mean. The kernel runs the scaling, the accumulation and the averaging as seven grid regions among the host's
  gathers and scatter-adds; the reference does everything on the host.

  Over the extended reals the two programs compute the same arrays, stage by stage:
    * every host operation of the kernel is an operation of the reference on the same operands;
    * a scaling region leaves (x · a) · b where the reference has x · (a · b) — associativity of the product;
    * an accumulating region leaves the entrywise sum, as the reference does;
    * the averaging region multiplies by 0.25 where the reference divides by 4.0 — the same map of the extended reals.
  None of these laws needs the inputs finite, so the precondition is never opened. The kernel's results are read off
  its run segment by segment (Proof/Fold1 … Fold3 over the regions' whole-array forms), the reference's off its run.
-/
import proofs.«163690_j34187939676701_2_alg».proof.Defs
import proofs.«163690_j34187939676701_2_alg».proof.Proof.Gen.Kernel
import proofs.«163690_j34187939676701_2_alg».proof.Proof.Gen.Kernel.Skeleton
import proofs.«163690_j34187939676701_2_alg».proof.Proof.Gen.Kernel.Launch
import proofs.«163690_j34187939676701_2_alg».proof.Proof.Gen.Kernel.Points
import proofs.«163690_j34187939676701_2_alg».proof.Proof.Gen.Kernel.Frame
import proofs.«163690_j34187939676701_2_alg».proof.Proof.Gen.KernelIdeal
import proofs.«163690_j34187939676701_2_alg».proof.Proof.Gen.KernelIdeal.Skeleton
import proofs.«163690_j34187939676701_2_alg».proof.Proof.Gen.KernelIdeal.Launch
import proofs.«163690_j34187939676701_2_alg».proof.Proof.Gen.KernelIdeal.Points
import proofs.«163690_j34187939676701_2_alg».proof.Proof.Gen.KernelIdeal.Frame
import proofs.«163690_j34187939676701_2_alg».proof.Proof.Gen.ReferenceIdeal
import proofs.«163690_j34187939676701_2_alg».proof.Proof.Gen.Pre_finite_inputs
import proofs.«163690_j34187939676701_2_alg».proof.Proof.KernelRun
import proofs.«163690_j34187939676701_2_alg».proof.Proof.RefRun
import proofs.«163690_j34187939676701_2_alg».proof.Proof.RefRead
import proofs.«163690_j34187939676701_2_alg».proof.Proof.Fold3
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- Both programs end with the user rows and the item rows of the reference's mean of the four layer outputs, as
    functions of the launch arguments: the kernel by its run read boundary by boundary, the reference by its run
    read operation by operation, the arguments agreeing. -/
theorem algebraic : Cert.algebraic_KernelIdeal_ReferenceIdeal := by
  intro m ρ m' ρ' _ hagree
  refine ⟨fun c => Cert.ReferenceIdeal.ReadP.val_main_v129 (F := Ideal) (Cert.Bridge.edges m c) (Cert.Bridge.users m c) (Cert.Bridge.items m c),
    fun c => Cert.ReferenceIdeal.ReadP.val_main_v130 (F := Ideal) (Cert.Bridge.edges m c) (Cert.Bridge.users m c) (Cert.Bridge.items m c), ?_, ?_⟩
  · exact (θ_run Cert.KernelIdeal.defs _ _).mono
      (fun r h c => ⟨(h c).1.trans (Cert.Bridge.W16_v67 m ρ c), (h c).2.1.trans (Cert.Bridge.W16_v68 m ρ c), (h c).2.2⟩)
      (Cert.KernelIdeal.Run.run_named (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v129_eq, (hagree c).1, (hagree c).2.1, (hagree c).2.2]
    · rw [Cert.ReferenceIdeal.ReadP.val_main_v130_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
